-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512x64x64 : Shape := ⟨4, ![16, 512, 64, 64]⟩
abbrev S1x512x64 : Shape := ⟨3, ![1, 512, 64]⟩
abbrev S_ : Shape := ⟨0, ![]⟩

class Facts : Prop where
  bcast_S_S16x512x64x64 : S_.BroadcastsInDim S16x512x64x64 (![] : Fin 0 → Fin S16x512x64x64.rank)
  reducesTo_S16x512x64x64_S_d0_1_2_3 : S16x512x64x64.ReducesTo [0, 1, 2, 3] S_
  h_S_ : 0 < S_.numel
  bcast_S_S1x512x64 : S_.BroadcastsInDim S1x512x64 (![] : Fin 0 → Fin S1x512x64.rank)
  reducesTo_S1x512x64_S_d0_1_2 : S1x512x64.ReducesTo [0, 1, 2] S_

variable [Facts]

def fn {F : FTy → Type} [FloatOps F] (main_arg0 : FVec F S16x512x64x64 .f32) (main_arg1 : FVec F S1x512x64 .f32) : IVec S_ 1 :=
  let main_v0 : FVec F S16x512x64x64 .f32 := Host.absf main_arg0
  let main_cst : FVec F S_ .f32 := constant S_ .f32 0x7F800000#32
  let main_v1 : FVec F S16x512x64x64 .f32 := broadcastInDim S16x512x64x64 ![] bcast_S_S16x512x64x64 main_cst
  let main_v2 : IVec S16x512x64x64 1 := cmpf .olt main_v0 main_v1
  let main_c : IVec S_ 1 := constantI S_ 1 1#1
  let main_v3 : IVec S_ 1 := (fun x v => Host.reduce IntOp.andi x v reducesTo_S16x512x64x64_S_d0_1_2_3 h_S_) main_v2 main_c
  let main_v4 : FVec F S1x512x64 .f32 := Host.absf main_arg1
  let main_cst_0 : FVec F S_ .f32 := constant S_ .f32 0x7F800000#32
  let main_v5 : FVec F S1x512x64 .f32 := broadcastInDim S1x512x64 ![] bcast_S_S1x512x64 main_cst_0
  let main_v6 : IVec S1x512x64 1 := cmpf .olt main_v4 main_v5
  let main_c_1 : IVec S_ 1 := constantI S_ 1 1#1
  let main_v7 : IVec S_ 1 := (fun x v => Host.reduce IntOp.andi x v reducesTo_S1x512x64_S_d0_1_2 h_S_) main_v6 main_c_1
  let main_v8 : IVec S_ 1 := andi main_v3 main_v7
  main_v8
-- ==== Kernel.lean ====
abbrev S16x512x64x64 : Shape := ⟨4, ![16, 512, 64, 64]⟩
abbrev S1x512x64 : Shape := ⟨3, ![1, 512, 64]⟩
abbrev S16x512x4096 : Shape := ⟨3, ![16, 512, 4096]⟩
abbrev S_ : Shape := ⟨0, ![]⟩
abbrev S1x64 : Shape := ⟨2, ![1, 64]⟩
abbrev S1x1x64 : Shape := ⟨3, ![1, 1, 64]⟩
abbrev S1x512x4096 : Shape := ⟨3, ![1, 512, 4096]⟩
abbrev S512x4096 : Shape := ⟨2, ![512, 4096]⟩
abbrev S512x64 : Shape := ⟨2, ![512, 64]⟩
abbrev S64x512 : Shape := ⟨2, ![64, 512]⟩
abbrev S64x4096 : Shape := ⟨2, ![64, 4096]⟩
abbrev S4096 : Shape := ⟨1, ![4096]⟩
abbrev S1x4096 : Shape := ⟨2, ![1, 4096]⟩
abbrev S64 : Shape := ⟨1, ![64]⟩
abbrev S64x1 : Shape := ⟨2, ![64, 1]⟩

abbrev nBuf : Space → Nat
  | .hbm => 15
  | .vmem => 5
  | .smem => 0
  | _ => 0

abbrev bufTy : (tb : Table) → Fin (tcTables nBuf tb) → BufTy
  | .hbm, ⟨0, _⟩ => ⟨S16x512x64x64, .f32⟩
  | .hbm, ⟨1, _⟩ => ⟨S1x512x64, .f32⟩
  | .hbm, ⟨2, _⟩ => ⟨S16x512x4096, .f32⟩
  | .hbm, ⟨3, _⟩ => ⟨S1x512x64, .f32⟩
  | .hbm, ⟨4, _⟩ => ⟨S_, .f32⟩
  | .hbm, ⟨5, _⟩ => ⟨S1x64, .f32⟩
  | .hbm, ⟨6, _⟩ => ⟨S1x1x64, .f32⟩
  | .hbm, ⟨7, _⟩ => ⟨S1x1x64, .f32⟩
  | .hbm, ⟨8, _⟩ => ⟨S_, .f32⟩
  | .hbm, ⟨9, _⟩ => ⟨S1x1x64, .f32⟩
  | .hbm, ⟨10, _⟩ => ⟨S1x1x64, .f32⟩
  | .hbm, ⟨11, _⟩ => ⟨S1x512x64, .f32⟩
  | .hbm, ⟨12, _⟩ => ⟨S1x512x64, .f32⟩
  | .hbm, ⟨13, _⟩ => ⟨S16x512x4096, .f32⟩
  | .hbm, ⟨14, _⟩ => ⟨S16x512x64x64, .f32⟩
  | .local _ .vmem, ⟨0, _⟩ => ⟨S1x512x4096, .f32⟩
  | .local _ .vmem, ⟨1, _⟩ => ⟨S1x512x4096, .f32⟩
  | .local _ .vmem, ⟨2, _⟩ => ⟨S1x512x64, .f32⟩
  | .local _ .vmem, ⟨3, _⟩ => ⟨S1x512x4096, .f32⟩
  | .local _ .vmem, ⟨4, _⟩ => ⟨S1x512x4096, .f32⟩
  | _, _ => ⟨S16x512x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S16x512x64x64_S16x512x4096 : S16x512x64x64.ShapeCasts S16x512x4096
  reducesTo_S1x512x64_S1x64_d1 : S1x512x64.ReducesTo [1] S1x64
  h_S_ : 0 < S_.numel
  bcast_S1x64_S1x1x64_0_2 : S1x64.BroadcastsInDim S1x1x64 (![0, 2] : Fin 2 → Fin S1x1x64.rank)
  bcast_S_S1x1x64 : S_.BroadcastsInDim S1x1x64 (![] : Fin 0 → Fin S1x1x64.rank)
  bcast_S1x1x64_S1x512x64_0_1_2 : S1x1x64.BroadcastsInDim S1x512x64 (![0, 1, 2] : Fin 3 → Fin S1x512x64.rank)
  inb_S1x512x4096_S1x512x4096_0_0_0 : ∀ a, (![0, 0, 0] : Fin 3 → Nat) a + S1x512x4096.size a ≤ S1x512x4096.size a
  h_S1x512x4096 : 0 < S1x512x4096.numel
  shapeCasts_S1x512x4096_S512x4096 : S1x512x4096.ShapeCasts S512x4096
  bitsLt_bf16_f32 : FTy.bits .bf16 < FTy.bits .f32
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  transposes_S512x64_p1_0_S64x512 : S512x64.Transposes [1, 0] S64x512
  reduces_S64x4096_S4096 : S64x4096.Reduces [0] S4096
  shapeCasts_S4096_S1x4096 : S4096.ShapeCasts S1x4096
  broadcasts_S1x4096_S64x4096 : S1x4096.Broadcasts S64x4096
  reduces_S64x4096_S64 : S64x4096.Reduces [1] S64
  shapeCasts_S64_S64x1 : S64.ShapeCasts S64x1
  broadcasts_S64x1_S64x4096 : S64x1.Broadcasts S64x4096
  reduces_S512x64_S64 : S512x64.Reduces [0] S64
  shapeCasts_S64_S1x64 : S64.ShapeCasts S1x64
  broadcasts_S1x64_S512x64 : S1x64.Broadcasts S512x64
  shapeCasts_S512x4096_S1x512x4096 : S512x4096.ShapeCasts S1x512x4096
  shapeCasts_S16x512x4096_S16x512x64x64 : S16x512x4096.ShapeCasts S16x512x64x64
  dot_S64x512_S512x4096_S64x4096_1_0_0_1_n_n_wf : DotDims.WF S64x512 S512x4096 S64x4096 [1] [0] [0] [1] [] []
  dot_S512x4096_S64x4096_S512x64_1_1_0_0_n_n_wf : DotDims.WF S512x4096 S64x4096 S512x64 [1] [1] [0] [0] [] []
  dot_S512x64_S64x4096_S512x4096_1_0_0_1_n_n_wf : DotDims.WF S512x64 S64x4096 S512x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x4096.size a ≤ S16x512x4096.size a
  hwx0_0 : ∀ i : grid0.Coords, EltTy.bits .f32 = 32 ∨ (Rect.block (s := S16x512x4096) S1x512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x512x64.size a ≤ S1x512x64.size a
  hwx0_1 : ∀ i : grid0.Coords, EltTy.bits .f32 = 32 ∨ (Rect.block (s := S1x512x64) S1x512x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x4096.size a ≤ S16x512x4096.size a
  hwx0_2 : ∀ i : grid0.Coords, EltTy.bits .f32 = 32 ∨ (Rect.block (s := S16x512x4096) S1x512x4096.size (cc0_transform_2 i) (hinb0_2 i)).WholeWords (EltTy.packing .f32)

variable [Facts₀]

def dot_S64x512_S512x4096_S64x4096_1_0_0_1_n_n : DotDims S64x512 S512x4096 S64x4096 where
  lhsContracting := [1]
  rhsContracting := [0]
  lhsNonContracting := [0]
  rhsNonContracting := [1]
  lhsBatch := []
  rhsBatch := []
  wf := dot_S64x512_S512x4096_S64x4096_1_0_0_1_n_n_wf
def dot_S512x4096_S64x4096_S512x64_1_1_0_0_n_n : DotDims S512x4096 S64x4096 S512x64 where
  lhsContracting := [1]
  rhsContracting := [1]
  lhsNonContracting := [0]
  rhsNonContracting := [0]
  lhsBatch := []
  rhsBatch := []
  wf := dot_S512x4096_S64x4096_S512x64_1_1_0_0_n_n_wf
def dot_S512x64_S64x4096_S512x4096_1_0_0_1_n_n : DotDims S512x64 S64x4096 S512x4096 where
  lhsContracting := [1]
  rhsContracting := [0]
  lhsNonContracting := [0]
  rhsNonContracting := [1]
  lhsBatch := []
  rhsBatch := []
  wf := dot_S512x64_S64x4096_S512x4096_1_0_0_1_n_n_wf

abbrev win0_0 : Pipeline.Window sig grid0 :=
  Pipeline.Window.ofSpec (Memref.whole main_v0) S1x512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S1x512x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x512x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x512x64x64 : Shape := ⟨4, ![16, 512, 64, 64]⟩
abbrev S1x512x64 : Shape := ⟨3, ![1, 512, 64]⟩
abbrev S16x512x4096 : Shape := ⟨3, ![16, 512, 4096]⟩
abbrev S_ : Shape := ⟨0, ![]⟩
abbrev S1x64 : Shape := ⟨2, ![1, 64]⟩
abbrev S1x1x64 : Shape := ⟨3, ![1, 1, 64]⟩
abbrev S16x512x64 : Shape := ⟨3, ![16, 512, 64]⟩
abbrev S16x4096x64 : Shape := ⟨3, ![16, 4096, 64]⟩
abbrev S16x4096 : Shape := ⟨2, ![16, 4096]⟩
abbrev S16x4096x1 : Shape := ⟨3, ![16, 4096, 1]⟩
abbrev S16x64 : Shape := ⟨2, ![16, 64]⟩
abbrev S16x1x64 : Shape := ⟨3, ![16, 1, 64]⟩

abbrev nBuf : Space → Nat
  | .hbm => 118
  | .vmem => 0
  | .smem => 0
  | _ => 0

abbrev bufTy : (tb : Table) → Fin (tcTables nBuf tb) → BufTy
  | .hbm, ⟨0, _⟩ => ⟨S16x512x64x64, .f32⟩
  | .hbm, ⟨1, _⟩ => ⟨S1x512x64, .f32⟩
  | .hbm, ⟨2, _⟩ => ⟨S16x512x4096, .f32⟩
  | .hbm, ⟨3, _⟩ => ⟨S1x512x64, .f32⟩
  | .hbm, ⟨4, _⟩ => ⟨S_, .f32⟩
  | .hbm, ⟨5, _⟩ => ⟨S1x64, .f32⟩
  | .hbm, ⟨6, _⟩ => ⟨S1x1x64, .f32⟩
  | .hbm, ⟨7, _⟩ => ⟨S1x1x64, .f32⟩
  | .hbm, ⟨8, _⟩ => ⟨S_, .f32⟩
  | .hbm, ⟨9, _⟩ => ⟨S1x1x64, .f32⟩
  | .hbm, ⟨10, _⟩ => ⟨S1x1x64, .f32⟩
  | .hbm, ⟨11, _⟩ => ⟨S1x512x64, .f32⟩
  | .hbm, ⟨12, _⟩ => ⟨S1x512x64, .f32⟩
  | .hbm, ⟨13, _⟩ => ⟨S16x512x64, .f32⟩
  | .hbm, ⟨14, _⟩ => ⟨S16x4096x64, .f32⟩
  | .hbm, ⟨15, _⟩ => ⟨S_, .f32⟩
  | .hbm, ⟨16, _⟩ => ⟨S16x4096, .f32⟩
  | .hbm, ⟨17, _⟩ => ⟨S_, .f32⟩
  | .hbm, ⟨18, _⟩ => ⟨S16x4096, .f32⟩
  | .hbm, ⟨19, _⟩ => ⟨S16x4096, .f32⟩
  | .hbm, ⟨20, _⟩ => ⟨S16x4096x1, .f32⟩
  | .hbm, ⟨21, _⟩ => ⟨S16x4096x64, .f32⟩
  | .hbm, ⟨22, _⟩ => ⟨S16x4096x64, .f32⟩
  | .hbm, ⟨23, _⟩ => ⟨S16x4096x64, .f32⟩
  | .hbm, ⟨24, _⟩ => ⟨S_, .f32⟩
  | .hbm, ⟨25, _⟩ => ⟨S16x4096, .f32⟩
  | .hbm, ⟨26, _⟩ => ⟨S16x4096x1, .f32⟩
  | .hbm, ⟨27, _⟩ => ⟨S16x4096x64, .f32⟩
  | .hbm, ⟨28, _⟩ => ⟨S16x4096x64, .f32⟩
  | .hbm, ⟨29, _⟩ => ⟨S_, .f32⟩
  | .hbm, ⟨30, _⟩ => ⟨S16x64, .f32⟩
  | .hbm, ⟨31, _⟩ => ⟨S16x1x64, .f32⟩
  | .hbm, ⟨32, _⟩ => ⟨S_, .f32⟩
  | .hbm, ⟨33, _⟩ => ⟨S16x1x64, .f32⟩
  | .hbm, ⟨34, _⟩ => ⟨S16x1x64, .f32⟩
  | .hbm, ⟨35, _⟩ => ⟨S16x4096x64, .f32⟩
  | .hbm, ⟨36, _⟩ => ⟨S16x4096x64, .f32⟩
  | .hbm, ⟨37, _⟩ => ⟨S16x512x64, .f32⟩
  | .hbm, ⟨38, _⟩ => ⟨S16x512x64, .f32⟩
  | .hbm, ⟨39, _⟩ => ⟨S_, .f32⟩
  | .hbm, ⟨40, _⟩ => ⟨S16x64, .f32⟩
  | .hbm, ⟨41, _⟩ => ⟨S16x1x64, .f32⟩
  | .hbm, ⟨42, _⟩ => ⟨S16x1x64, .f32⟩
  | .hbm, ⟨43, _⟩ => ⟨S_, .f32⟩
  | .hbm, ⟨44, _⟩ => ⟨S16x1x64, .f32⟩
  | .hbm, ⟨45, _⟩ => ⟨S16x1x64, .f32⟩
  | .hbm, ⟨46, _⟩ => ⟨S16x512x64, .f32⟩
  | .hbm, ⟨47, _⟩ => ⟨S16x512x64, .f32⟩
  | .hbm, ⟨48, _⟩ => ⟨S16x4096x64, .f32⟩
  | .hbm, ⟨49, _⟩ => ⟨S_, .f32⟩
  | .hbm, ⟨50, _⟩ => ⟨S16x4096, .f32⟩
  | .hbm, ⟨51, _⟩ => ⟨S_, .f32⟩
  | .hbm, ⟨52, _⟩ => ⟨S16x4096, .f32⟩
  | .hbm, ⟨53, _⟩ => ⟨S16x4096, .f32⟩
  | .hbm, ⟨54, _⟩ => ⟨S16x4096x1, .f32⟩
  | .hbm, ⟨55, _⟩ => ⟨S16x4096x64, .f32⟩
  | .hbm, ⟨56, _⟩ => ⟨S16x4096x64, .f32⟩
  | .hbm, ⟨57, _⟩ => ⟨S16x4096x64, .f32⟩
  | .hbm, ⟨58, _⟩ => ⟨S_, .f32⟩
  | .hbm, ⟨59, _⟩ => ⟨S16x4096, .f32⟩
  | .hbm, ⟨60, _⟩ => ⟨S16x4096x1, .f32⟩
  | .hbm, ⟨61, _⟩ => ⟨S16x4096x64, .f32⟩
  | .hbm, ⟨62, _⟩ => ⟨S16x4096x64, .f32⟩
  | .hbm, ⟨63, _⟩ => ⟨S_, .f32⟩
  | .hbm, ⟨64, _⟩ => ⟨S16x64, .f32⟩
  | .hbm, ⟨65, _⟩ => ⟨S16x1x64, .f32⟩
  | .hbm, ⟨66, _⟩ => ⟨S_, .f32⟩
  | .hbm, ⟨67, _⟩ => ⟨S16x1x64, .f32⟩
  | .hbm, ⟨68, _⟩ => ⟨S16x1x64, .f32⟩
  | .hbm, ⟨69, _⟩ => ⟨S16x4096x64, .f32⟩
  | .hbm, ⟨70, _⟩ => ⟨S16x4096x64, .f32⟩
  | .hbm, ⟨71, _⟩ => ⟨S16x512x64, .f32⟩
  | .hbm, ⟨72, _⟩ => ⟨S16x512x64, .f32⟩
  | .hbm, ⟨73, _⟩ => ⟨S_, .f32⟩
  | .hbm, ⟨74, _⟩ => ⟨S16x64, .f32⟩
  | .hbm, ⟨75, _⟩ => ⟨S16x1x64, .f32⟩
  | .hbm, ⟨76, _⟩ => ⟨S16x1x64, .f32⟩
  | .hbm, ⟨77, _⟩ => ⟨S_, .f32⟩
  | .hbm, ⟨78, _⟩ => ⟨S16x1x64, .f32⟩
  | .hbm, ⟨79, _⟩ => ⟨S16x1x64, .f32⟩
  | .hbm, ⟨80, _⟩ => ⟨S16x512x64, .f32⟩
  | .hbm, ⟨81, _⟩ => ⟨S16x512x64, .f32⟩
  | .hbm, ⟨82, _⟩ => ⟨S16x4096x64, .f32⟩
  | .hbm, ⟨83, _⟩ => ⟨S_, .f32⟩
  | .hbm, ⟨84, _⟩ => ⟨S16x4096, .f32⟩
  | .hbm, ⟨85, _⟩ => ⟨S_, .f32⟩
  | .hbm, ⟨86, _⟩ => ⟨S16x4096, .f32⟩
  | .hbm, ⟨87, _⟩ => ⟨S16x4096, .f32⟩
  | .hbm, ⟨88, _⟩ => ⟨S16x4096x1, .f32⟩
  | .hbm, ⟨89, _⟩ => ⟨S16x4096x64, .f32⟩
  | .hbm, ⟨90, _⟩ => ⟨S16x4096x64, .f32⟩
  | .hbm, ⟨91, _⟩ => ⟨S16x4096x64, .f32⟩
  | .hbm, ⟨92, _⟩ => ⟨S_, .f32⟩
  | .hbm, ⟨93, _⟩ => ⟨S16x4096, .f32⟩
  | .hbm, ⟨94, _⟩ => ⟨S16x4096x1, .f32⟩
  | .hbm, ⟨95, _⟩ => ⟨S16x4096x64, .f32⟩
  | .hbm, ⟨96, _⟩ => ⟨S16x4096x64, .f32⟩
  | .hbm, ⟨97, _⟩ => ⟨S_, .f32⟩
  | .hbm, ⟨98, _⟩ => ⟨S16x64, .f32⟩
  | .hbm, ⟨99, _⟩ => ⟨S16x1x64, .f32⟩
  | .hbm, ⟨100, _⟩ => ⟨S_, .f32⟩
  | .hbm, ⟨101, _⟩ => ⟨S16x1x64, .f32⟩
  | .hbm, ⟨102, _⟩ => ⟨S16x1x64, .f32⟩
  | .hbm, ⟨103, _⟩ => ⟨S16x4096x64, .f32⟩
  | .hbm, ⟨104, _⟩ => ⟨S16x4096x64, .f32⟩
  | .hbm, ⟨105, _⟩ => ⟨S16x512x64, .f32⟩
  | .hbm, ⟨106, _⟩ => ⟨S16x512x64, .f32⟩
  | .hbm, ⟨107, _⟩ => ⟨S_, .f32⟩
  | .hbm, ⟨108, _⟩ => ⟨S16x64, .f32⟩
  | .hbm, ⟨109, _⟩ => ⟨S16x1x64, .f32⟩
  | .hbm, ⟨110, _⟩ => ⟨S16x1x64, .f32⟩
  | .hbm, ⟨111, _⟩ => ⟨S_, .f32⟩
  | .hbm, ⟨112, _⟩ => ⟨S16x1x64, .f32⟩
  | .hbm, ⟨113, _⟩ => ⟨S16x1x64, .f32⟩
  | .hbm, ⟨114, _⟩ => ⟨S16x512x64, .f32⟩
  | .hbm, ⟨115, _⟩ => ⟨S16x512x64, .f32⟩
  | .hbm, ⟨116, _⟩ => ⟨S16x512x4096, .f32⟩
  | .hbm, ⟨117, _⟩ => ⟨S16x512x64x64, .f32⟩
  | _, _ => ⟨S16x512x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_call1_v0 : Ref sig .tc := ⟨.hbm, 38, rfl⟩
abbrev main_call1_cst : Ref sig .tc := ⟨.hbm, 39, rfl⟩
abbrev main_call1_v1 : Ref sig .tc := ⟨.hbm, 40, rfl⟩
abbrev main_call1_v2 : Ref sig .tc := ⟨.hbm, 41, rfl⟩
abbrev main_v26 : Ref sig .tc := ⟨.hbm, 42, rfl⟩
abbrev main_cst_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_6 : Ref sig .tc := ⟨.hbm, 49, rfl⟩
abbrev main_v32 : Ref sig .tc := ⟨.hbm, 50, rfl⟩
abbrev main_cst_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_8 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_9 : Ref sig .tc := ⟨.hbm, 63, rfl⟩
abbrev main_v43 : Ref sig .tc := ⟨.hbm, 64, rfl⟩
abbrev main_v44 : Ref sig .tc := ⟨.hbm, 65, rfl⟩
abbrev main_cst_10 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_call2_v0 : Ref sig .tc := ⟨.hbm, 72, rfl⟩
abbrev main_call2_cst : Ref sig .tc := ⟨.hbm, 73, rfl⟩
abbrev main_call2_v1 : Ref sig .tc := ⟨.hbm, 74, rfl⟩
abbrev main_call2_v2 : Ref sig .tc := ⟨.hbm, 75, rfl⟩
abbrev main_v50 : Ref sig .tc := ⟨.hbm, 76, rfl⟩
abbrev main_cst_11 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_12 : Ref sig .tc := ⟨.hbm, 83, rfl⟩
abbrev main_v56 : Ref sig .tc := ⟨.hbm, 84, rfl⟩
abbrev main_cst_13 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_14 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_cst_15 : Ref sig .tc := ⟨.hbm, 97, rfl⟩
abbrev main_v67 : Ref sig .tc := ⟨.hbm, 98, rfl⟩
abbrev main_v68 : Ref sig .tc := ⟨.hbm, 99, rfl⟩
abbrev main_cst_16 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_call3_v0 : Ref sig .tc := ⟨.hbm, 106, rfl⟩
abbrev main_call3_cst : Ref sig .tc := ⟨.hbm, 107, rfl⟩
abbrev main_call3_v1 : Ref sig .tc := ⟨.hbm, 108, rfl⟩
abbrev main_call3_v2 : Ref sig .tc := ⟨.hbm, 109, rfl⟩
abbrev main_v74 : Ref sig .tc := ⟨.hbm, 110, rfl⟩
abbrev main_cst_17 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩

abbrev nD : Nat := 1
abbrev τ : Topo := Topo.v7x

variable {F : FTy → Type} [FloatOps F]

class Facts₀ : Prop where
  shapeCasts_S16x512x64x64_S16x512x4096 : S16x512x64x64.ShapeCasts S16x512x4096
  reducesTo_S1x512x64_S1x64_d1 : S1x512x64.ReducesTo [1] S1x64
  h_S_ : 0 < S_.numel
  bcast_S1x64_S1x1x64_0_2 : S1x64.BroadcastsInDim S1x1x64 (![0, 2] : Fin 2 → Fin S1x1x64.rank)
  bcast_S_S1x1x64 : S_.BroadcastsInDim S1x1x64 (![] : Fin 0 → Fin S1x1x64.rank)
  bcast_S1x1x64_S1x512x64_0_1_2 : S1x1x64.BroadcastsInDim S1x512x64 (![0, 1, 2] : Fin 3 → Fin S1x512x64.rank)
  bcast_S1x512x64_S16x512x64_0_1_2 : S1x512x64.BroadcastsInDim S16x512x64 (![0, 1, 2] : Fin 3 → Fin S16x512x64.rank)
  reducesTo_S16x4096x64_S16x4096_d2 : S16x4096x64.ReducesTo [2] S16x4096
  bcast_S_S16x4096 : S_.BroadcastsInDim S16x4096 (![] : Fin 0 → Fin S16x4096.rank)
  bcast_S16x4096_S16x4096x1_0_1 : S16x4096.BroadcastsInDim S16x4096x1 (![0, 1] : Fin 2 → Fin S16x4096x1.rank)
  bcast_S16x4096x1_S16x4096x64_0_1_2 : S16x4096x1.BroadcastsInDim S16x4096x64 (![0, 1, 2] : Fin 3 → Fin S16x4096x64.rank)
  reducesTo_S16x4096x64_S16x64_d1 : S16x4096x64.ReducesTo [1] S16x64
  bcast_S16x64_S16x1x64_0_2 : S16x64.BroadcastsInDim S16x1x64 (![0, 2] : Fin 2 → Fin S16x1x64.rank)
  bcast_S_S16x1x64 : S_.BroadcastsInDim S16x1x64 (![] : Fin 0 → Fin S16x1x64.rank)
  bcast_S16x1x64_S16x4096x64_0_1_2 : S16x1x64.BroadcastsInDim S16x4096x64 (![0, 1, 2] : Fin 3 → Fin S16x4096x64.rank)
  reducesTo_S16x512x64_S16x64_d1 : S16x512x64.ReducesTo [1] S16x64
  bcast_S16x1x64_S16x512x64_0_1_2 : S16x1x64.BroadcastsInDim S16x512x64 (![0, 1, 2] : Fin 3 → Fin S16x512x64.rank)
  shapeCasts_S16x512x4096_S16x512x64x64 : S16x512x4096.ShapeCasts S16x512x64x64
  dot_S16x512x4096_S16x512x64_S16x4096x64_1_1_2_2_0_0_wf : DotDims.WF S16x512x4096 S16x512x64 S16x4096x64 [1] [1] [2] [2] [0] [0]
  dot_S16x512x4096_S16x4096x64_S16x512x64_2_1_1_2_0_0_wf : DotDims.WF S16x512x4096 S16x4096x64 S16x512x64 [2] [1] [1] [2] [0] [0]
  dot_S16x512x64_S16x4096x64_S16x512x4096_2_2_1_1_0_0_wf : DotDims.WF S16x512x64 S16x4096x64 S16x512x4096 [2] [2] [1] [1] [0] [0]

variable [Facts₀]

def dot_S16x512x4096_S16x512x64_S16x4096x64_1_1_2_2_0_0 : DotDims S16x512x4096 S16x512x64 S16x4096x64 where
  lhsContracting := [1]
  rhsContracting := [1]
  lhsNonContracting := [2]
  rhsNonContracting := [2]
  lhsBatch := [0]
  rhsBatch := [0]
  wf := dot_S16x512x4096_S16x512x64_S16x4096x64_1_1_2_2_0_0_wf
def dot_S16x512x4096_S16x4096x64_S16x512x64_2_1_1_2_0_0 : DotDims S16x512x4096 S16x4096x64 S16x512x64 where
  lhsContracting := [2]
  rhsContracting := [1]
  lhsNonContracting := [1]
  rhsNonContracting := [2]
  lhsBatch := [0]
  rhsBatch := [0]
  wf := dot_S16x512x4096_S16x4096x64_S16x512x64_2_1_1_2_0_0_wf
def dot_S16x512x64_S16x4096x64_S16x512x4096_2_2_1_1_0_0 : DotDims S16x512x64 S16x4096x64 S16x512x4096 where
  lhsContracting := [2]
  rhsContracting := [2]
  lhsNonContracting := [1]
  rhsNonContracting := [1]
  lhsBatch := [0]
  rhsBatch := [0]
  wf := dot_S16x512x64_S16x4096x64_S16x512x4096_2_2_1_1_0_0_wf

class Facts : Prop extends Facts₀ where

variable [Facts]
-- ==== Proof.EMSpec.lean ====
/-
  The mathematics of one block of the computation, as plain functions over the extended reals.

  A block holds a feature matrix f (C channels by N positions) and a basis b (C channels by K components).
  One round of the iteration is
      logits[k, n]  = Σ_c b[c, k] · f[c, n]
      attn[k, n]    = exp(logits[k, n] − max_k logits[·, n]) / Σ_k' exp(logits[k', n] − max …)      (a softmax over k)
      l1[k, n]      = attn[k, n] / (ε + Σ_n' attn[k, n'])
      proj[c, k]    = Σ_n f[c, n] · l1[k, n]
      b'[c, k]      = proj[c, k] / (ε + sqrt(Σ_c' proj[c', k]²))                                     (columns of unit length)
  and the block's result after three rounds is  Σ_k b₃[c, k] · attn₃[k, n], the attention of the LAST round against the
  basis that round produced.  Every operation is the exact one on the extended reals; ε and −∞ are kept as the
  binary words the programs carry, which are the same on both sides and are never evaluated.
-/
import Idealize.ShloMosaic.PureOps.Ideal

noncomputable section

namespace Cert.EMSpec

open Idealize.ShloMosaic

/-- The small positive constant added to every denominator (the single-precision word nearest 1e-6). -/
def eps : EReal := Ideal.ofBits .f32 0x358637BD#32
/-- The value a running maximum starts from (the word of −∞). -/
def ninf : EReal := Ideal.ofBits .f32 0xFF800000#32

variable {C N K : ℕ}

/-- logits[k, n] = Σ_c b[c, k] · f[c, n]. -/
def logits (f : Fin C → Fin N → EReal) (b : Fin C → Fin K → EReal) (k : Fin K) (n : Fin N) : EReal :=
  ∑ c : Fin C, b c k * f c n

/-- The maximum over k of column n (taken from −∞, and once more against −∞ as the programs do). -/
def colMax (x : Fin K → Fin N → EReal) (n : Fin N) : EReal :=
  max ninf ((Finset.univ : Finset (Fin K)).fold max ninf (fun k => x k n))

/-- exp(x[k, n] − max_k x[·, n]). -/
def expo (x : Fin K → Fin N → EReal) (k : Fin K) (n : Fin N) : EReal := Ideal.exp (x k n - colMax x n)

/-- The softmax over k of every column n. -/
def softmax (x : Fin K → Fin N → EReal) (k : Fin K) (n : Fin N) : EReal :=
  Ideal.div (expo x k n) (∑ k' : Fin K, expo x k' n)

/-- Each row k divided by ε plus its sum over n. -/
def l1 (a : Fin K → Fin N → EReal) (k : Fin K) (n : Fin N) : EReal :=
  Ideal.div (a k n) (eps + ∑ n' : Fin N, a k n')

/-- proj[c, k] = Σ_n f[c, n] · a[k, n]. -/
def project (f : Fin C → Fin N → EReal) (a : Fin K → Fin N → EReal) (c : Fin C) (k : Fin K) : EReal :=
  ∑ n : Fin N, f c n * a k n

/-- Each column k divided by ε plus its Euclidean length over c. -/
def l2 (b : Fin C → Fin K → EReal) (c : Fin C) (k : Fin K) : EReal :=
  Ideal.div (b c k) (eps + Ideal.sqrt (∑ c' : Fin C, b c' k * b c' k))

/-- The attention of a round: the softmax of the logits. -/
def attn (f : Fin C → Fin N → EReal) (b : Fin C → Fin K → EReal) : Fin K → Fin N → EReal := softmax (logits f b)

/-- One round: the next basis from the current one. -/
def step (f : Fin C → Fin N → EReal) (b : Fin C → Fin K → EReal) : Fin C → Fin K → EReal :=
  l2 (project f (l1 (attn f b)))

/-- recon[c, n] = Σ_k b[c, k] · a[k, n]. -/
def recon (b : Fin C → Fin K → EReal) (a : Fin K → Fin N → EReal) (c : Fin C) (n : Fin N) : EReal :=
  ∑ k : Fin K, b c k * a k n

/-- Three rounds from the basis b0, then the last round's attention against the last basis. -/
def result (f : Fin C → Fin N → EReal) (b0 : Fin C → Fin K → EReal) : Fin C → Fin N → EReal :=
  recon (step f (step f (step f b0))) (attn f (step f (step f b0)))

end Cert.EMSpec

end
-- ==== Proof.LibColumnReduce.lean ====
/-
  Reusable lemmas: reductions down the columns of an [a, b] array, read at an entry.

  A vector.multi_reduction over axis 0 of an [a, b] array leaves a [b] array whose entry q gathers column q:
      <add>       from the zero accumulator:  Σ_p src[p, q],
      <maximumf>  from the accumulator's value:  the fold of max over p of src[p, q].
  Both are read over the extended reals; generic in the extents and the float format.
-/
import Idealize.ShloMosaic.Lib.Pipeline.Value
import Idealize.ShloMosaic.Lib.ValueIdx
import Idealize.ShloMosaic.PureOps.Ideal.Laws

noncomputable section

namespace Cert.ColumnReduce

open Idealize.ShloMosaic Idealize.ShloMosaic.ValueIdx

variable {a b : ℕ}

/-- The source index of a reduction over the columns: the column q with the row p inserted is (p, q). -/
theorem lift_col (h : (⟨2, ![a, b]⟩ : Shape).Reduces [(0 : Fin 2)] ⟨1, ![b]⟩) (q : Fin b) (p : Fin a) :
    h.lift (ix1 q) p = ix2 p q := by
  funext d
  apply Fin.ext
  show h.liftVal (ix1 q) p.val d = (ix2 p q d).val
  unfold Shape.Reduces.liftVal
  match d with
  | ⟨0, _⟩ => rfl
  | ⟨1, _⟩ => rfl

/-- A sum down the columns of an [a, b] array, from the zero accumulator, is at q the sum over p of the entries (p, q). -/
theorem colSum_apply {φ : FTy} (src : FVec Ideal ⟨2, ![a, b]⟩ φ) (acc : BitVec φ.bits)
    (h : (⟨2, ![a, b]⟩ : Shape).Reduces [(0 : Fin 2)] ⟨1, ![b]⟩) (hφ : FKind.Formats φ)
    (hacc : acc = FKind.add.neutral φ hφ) (q : Fin b) :
    multiReduction .add [(0 : Fin 2)] ⟨1, ![b]⟩ src acc h hφ hacc (ix1 q) = ∑ p : Fin a, src (ix2 p q) := by
  refine (Ideal.multiReduction_add_single src acc h hφ hacc (ix1 q)).trans ?_
  show ∑ p : Fin a, src (h.lift (ix1 q) p) = _
  exact Finset.sum_congr rfl fun p _ => congrArg src (lift_col h q p)

/-- A running maximum down the columns of an [a, b] array is at q the fold of max, from the accumulator's value, over
    the entries (p, q). -/
theorem colMax_apply {φ : FTy} (src : FVec Ideal ⟨2, ![a, b]⟩ φ) (acc : BitVec φ.bits)
    (h : (⟨2, ![a, b]⟩ : Shape).Reduces [(0 : Fin 2)] ⟨1, ![b]⟩) (hφ : FKind.Formats φ)
    (hacc : acc = FKind.maximumf.neutral φ hφ) (q : Fin b) :
    multiReduction .maximumf [(0 : Fin 2)] ⟨1, ![b]⟩ src acc h hφ hacc (ix1 q)
      = (Finset.univ : Finset (Fin a)).fold max (Ideal.ofBits φ acc) (fun p => src (ix2 p q)) := by
  refine (Ideal.multiReduction_maximumf_single src acc h hφ hacc (ix1 q)).trans ?_
  have e : (src ∘ h.lift (ix1 q)) = fun p => src (ix2 p q) := funext fun p => congrArg src (lift_col h q p)
  show (Finset.univ : Finset (Fin a)).fold max (Ideal.ofBits φ acc) (src ∘ h.lift (ix1 q)) = _
  rw [e]
  rfl

end Cert.ColumnReduce

end
-- ==== Proof.LibSlabLayout.lean ====
/-
  Reusable lemmas: an [a, b] array of rows and an [a, b, c] array of slabs read at an entry.

  A kernel that treats each of a blocks separately reduces along the middle axis of an [a, b, c] array (a sum over the b
  rows of every slab, leaving [a, c]) and along the rows of an [a, b] array (a sum or a running maximum over b, leaving
  [a]), and lays an [a, b] array along a new trailing axis ([a, b] → [a, b, 1] → [a, b, c]).  Each lemma reads one such
  operation at an entry written by its coordinates; the sums are over the extended reals.  Generic in the extents.
-/
import Idealize.ShloMosaic.Lib.Pipeline.Value
import Idealize.ShloMosaic.Lib.ValueIdx
import Idealize.ShloMosaic.PureOps.Ideal.Laws

noncomputable section

namespace Cert.SlabLayout

open Idealize.ShloMosaic Idealize.ShloMosaic.ValueIdx

variable {α : Type} {a b c : ℕ}

/-- An [a, b] array viewed [a, b, 1] reads, at (i, k, u), the operand at (i, k). -/
theorem shapeCast_ab_ab1_apply (x : (⟨2, ![a, b]⟩ : Shape).Idx → α)
    (h : (⟨2, ![a, b]⟩ : Shape).ShapeCasts ⟨3, ![a, b, 1]⟩) (i : Fin a) (k : Fin b) (u : Fin 1) :
    shapeCast ⟨3, ![a, b, 1]⟩ x h (ix3 i k u) = x (ix2 i k) :=
  shapeCast_apply x h _ _ (by
    have hu : u.val = 0 := by omega
    rw [Shape.rowMajor_val_three, Shape.rowMajor_val_two]
    show i.val * b + k.val = (i.val * b + k.val) * 1 + u.val
    rw [hu, Nat.mul_one, Nat.add_zero])

/-- An [a, b, 1] array broadcast to [a, b, c] reads, at (i, k, j), the operand at (i, k, 0). -/
theorem broadcastTo_ab1_abc_apply (x : (⟨3, ![a, b, 1]⟩ : Shape).Idx → α)
    (h : (⟨3, ![a, b, 1]⟩ : Shape).Broadcasts ⟨3, ![a, b, c]⟩) (i : Fin a) (k : Fin b) (j : Fin c) :
    broadcastTo ⟨3, ![a, b, c]⟩ x h (ix3 i k j) = x (ix3 i k (0 : Fin 1)) := by
  refine broadcastTo_apply x h (ix3 i k j) (ix3 i k (0 : Fin 1)) fun ax => ?_
  match ax with
  | ⟨0, _⟩ =>
    show i.val = if a = 1 then 0 else i.val
    split
    · have := i.isLt; omega
    · rfl
  | ⟨1, _⟩ =>
    show k.val = if b = 1 then 0 else k.val
    split
    · have := k.isLt; omega
    · rfl
  | ⟨2, _⟩ => rfl

/-- The source index of a reduction over the middle axis: the pair (i, j) with the row k inserted is (i, k, j). -/
theorem lift_mid (h : (⟨3, ![a, b, c]⟩ : Shape).Reduces [(1 : Fin 3)] ⟨2, ![a, c]⟩) (i : Fin a) (j : Fin c) (k : Fin b) :
    h.lift (ix2 i j) k = ix3 i k j := by
  funext d
  apply Fin.ext
  show h.liftVal (ix2 i j) k.val d = (ix3 i k j d).val
  unfold Shape.Reduces.liftVal
  match d with
  | ⟨0, _⟩ => rfl
  | ⟨1, _⟩ => rfl
  | ⟨2, _⟩ => rfl

/-- Over the extended reals a sum over the middle axis of an [a, b, c] array, from the zero accumulator, is at (i, j)
    the sum over the rows k of the entries (i, k, j). -/
theorem midSum_apply {φ : FTy} (src : FVec Ideal ⟨3, ![a, b, c]⟩ φ) (acc : BitVec φ.bits)
    (h : (⟨3, ![a, b, c]⟩ : Shape).Reduces [(1 : Fin 3)] ⟨2, ![a, c]⟩) (hφ : FKind.Formats φ)
    (hacc : acc = FKind.add.neutral φ hφ) (i : Fin a) (j : Fin c) :
    multiReduction .add [(1 : Fin 3)] ⟨2, ![a, c]⟩ src acc h hφ hacc (ix2 i j) = ∑ k : Fin b, src (ix3 i k j) := by
  refine (Ideal.multiReduction_add_single src acc h hφ hacc (ix2 i j)).trans ?_
  show ∑ k : Fin b, src (h.lift (ix2 i j) k) = _
  exact Finset.sum_congr rfl fun k _ => congrArg src (lift_mid h i j k)

/-- The source index of a reduction over the rows of an [a, b] array: i with the column k inserted is (i, k). -/
theorem lift_row (h : (⟨2, ![a, b]⟩ : Shape).Reduces [(1 : Fin 2)] ⟨1, ![a]⟩) (i : Fin a) (k : Fin b) :
    h.lift (ix1 i) k = ix2 i k := by
  funext d
  apply Fin.ext
  show h.liftVal (ix1 i) k.val d = (ix2 i k d).val
  unfold Shape.Reduces.liftVal
  match d with
  | ⟨0, _⟩ => rfl
  | ⟨1, _⟩ => rfl

/-- Over the extended reals a sum along the rows of an [a, b] array, from the zero accumulator, is at i the sum over k
    of the entries (i, k). -/
theorem rowSum_apply {φ : FTy} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.add.neutral φ hφ) (i : Fin a) :
    multiReduction .add [(1 : Fin 2)] ⟨1, ![a]⟩ src acc h hφ hacc (ix1 i) = ∑ k : Fin b, src (ix2 i k) := by
  refine (Ideal.multiReduction_add_single src acc h hφ hacc (ix1 i)).trans ?_
  show ∑ k : Fin b, src (h.lift (ix1 i) k) = _
  exact Finset.sum_congr rfl fun k _ => congrArg src (lift_row h i k)

/-- Over the extended reals a running maximum along the rows of an [a, b] array is at i the fold of max, from the
    accumulator's value, over the entries (i, k). -/
theorem rowMax_apply {φ : FTy} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.maximumf.neutral φ hφ) (i : Fin a) :
    multiReduction .maximumf [(1 : Fin 2)] ⟨1, ![a]⟩ src acc h hφ hacc (ix1 i)
      = (Finset.univ : Finset (Fin b)).fold max (Ideal.ofBits φ acc) (fun k => src (ix2 i k)) := by
  refine (Ideal.multiReduction_maximumf_single src acc h hφ hacc (ix1 i)).trans ?_
  have e : (src ∘ h.lift (ix1 i)) = fun k => src (ix2 i k) := funext fun k => congrArg src (lift_row h i k)
  show (Finset.univ : Finset (Fin b)).fold max (Ideal.ofBits φ acc) (src ∘ h.lift (ix1 i)) = _
  rw [e]
  rfl

end Cert.SlabLayout

end
-- ==== Proof.LibKeepdimsColumn.lean ====
/-
  A reusable lemma pair: a column kept as a trailing unit axis, read at an entry.

  A reduction over the last axis of an [a, b] array with the axis kept leaves a column: the [a] result is cast to
  [a, 1] and then broadcast back to [a, b'] to meet the array it came from. Read at an entry,

      cast [a] → [a, 1]        at (i, u) is the operand at i,
      broadcast [a, 1] → [a, b] at (p, c) is the operand at (p, 0):

  every entry of row p sees the row's one value. Generic in the extents and in the element type.
-/
import Idealize.ShloMosaic.Lib.Pipeline.Value
import Idealize.ShloMosaic.Lib.ValueIdx

noncomputable section

namespace Cert.KeepdimsColumn

open Idealize.ShloMosaic Idealize.ShloMosaic.ValueIdx

/-- An [a] array cast to [a, 1] reads, at (i, u), the operand at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] array broadcast to [a, b] reads, at (p, c), the operand's row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.KeepdimsColumn

end
-- ==== Proof.LibMatmulNN.lean ====
/-
  A reusable lemma: a matrix product on the matrix unit, read at an entry.

  A `tpu.matmul` of an [M, K] operand by a [K, N] operand — contracting axis 1 of the left with axis 0 of the right, no
  batch axes — accumulated into the zero splat, read over the extended reals at the output entry (p, q), is the inner
  product of row p of the left operand with column q of the right one:

      (L · R)[p, q] = Σ_{k < K} L[p, k] · R[k, q].

  Generic in the extents M, K, N and in the operands' float formats; the dimension record may be any one that equals the
  plain M×K by K×N record (a printed program's own record does, by unfolding).
-/
import Idealize.ShloMosaic.PureOps.Ideal.Laws
import Idealize.ShloMosaic.Lib.ValueIdx

noncomputable section

namespace Cert.MatmulNN

open Idealize.ShloMosaic Idealize.ShloMosaic.ValueIdx

variable {M K N : Nat} {φ₁ φ₂ : FTy}

/-- The left operand's index at output (p, q) and contraction position k is (p, k). -/
theorem lhsIdx_plain (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl (ix2 p q) _).trans
        (contrEquiv1_symm_val (DotDims.plain M K N) K rfl rfl k))

/-- The right operand's index at output (p, q) and contraction position k is (k, q). -/
theorem rhsIdx_plain (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ =>
      exact ((DotDims.plain M K N).rhsIdx_val_of_single rfl (ix2 p q) _).trans
        (contrEquiv1_symm_val (DotDims.plain M K N) K rfl rfl k)
    | ⟨1, _⟩ => rfl)

/-- A matrix product into zeros, at entry (p, q): the inner product of row p with column q. -/
theorem matmul_zero_apply (D : DotDims ⟨2, ![M, K]⟩ ⟨2, ![K, N]⟩ ⟨2, ![M, N]⟩) (hD : D = DotDims.plain M K N)
    (prec : Option ContractPrecision) (lhs : FVec Ideal ⟨2, ![M, K]⟩ φ₁) (rhs : FVec Ideal ⟨2, ![K, N]⟩ φ₂)
    (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  subst hD
  rw [Ideal.matmul_constant_zero_apply, ← Equiv.sum_comp (contrEquiv1 (DotDims.plain M K N) K rfl rfl).symm]
  refine Finset.sum_congr rfl fun k _ => ?_
  rw [lhsIdx_plain, rhsIdx_plain]

end Cert.MatmulNN

end
-- ==== Proof.LibMatmulNT.lean ====
/-
  A reusable lemma: the product of a matrix with the TRANSPOSE of another, read at an entry.

  A `tpu.matmul` whose dimension numbers contract the LAST axis of both operands — an [M,K] left operand and an
  [N,K] right operand, result [M,N] — accumulated into zeros is, at the ideal instance and at the entry (p, q),
      Σ_k lhs[p,k] · rhs[q,k],
  the sum over k : Fin K.  The statement is generic in M, K, N and in the operands' float formats, and holds for any
  dimension record equal to the library's `DotDims.transposedRhs M K N`.
-/
import Idealize.ShloMosaic.PureOps.Ideal.Laws
import Idealize.ShloMosaic.Lib.ValueIdx

noncomputable section

namespace Cert.MatmulNT

open Idealize.ShloMosaic Idealize.ShloMosaic.ValueIdx

variable {M K N : Nat}

/-- The left operand is read in the result's row. -/
theorem lhs_row (j : (⟨2, ![M, N]⟩ : Shape).Idx) (k : (DotDims.transposedRhs M K N).contr.Idx) :
    ((DotDims.transposedRhs M K N).lhsIdx j k 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from
      List.mem_singleton.mpr rfl)]
  rfl

/-- The right operand is read in the row numbered by the result's column. -/
theorem rhs_row (j : (⟨2, ![M, N]⟩ : Shape).Idx) (k : (DotDims.transposedRhs M K N).contr.Idx) :
    ((DotDims.transposedRhs M K N).rhsIdx j k 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from
      List.mem_singleton.mpr rfl)]
  rfl

/-- A matrix times the transpose of another, into zeros, at the entry (p, q): Σ_k lhs[p,k] · rhs[q,k]. -/
theorem matmul_zero_apply {φ₁ φ₂ : FTy} (d : DotDims ⟨2, ![M, K]⟩ ⟨2, ![N, K]⟩ ⟨2, ![M, N]⟩)
    (hd : d = DotDims.transposedRhs M K N) (prec : Option ContractPrecision)
    (lhs : FVec Ideal ⟨2, ![M, K]⟩ φ₁) (rhs : FVec Ideal ⟨2, ![N, K]⟩ φ₂) (p : Fin M) (q : Fin N) :
    matmul d prec lhs rhs (constant (F := Ideal) ⟨2, ![M, N]⟩ .f32 0x00000000#32) (ix2 p q)
      = ∑ k : Fin K, lhs (ix2 p k) * rhs (ix2 q k) := by
  subst hd
  simp only [matmul]
  rw [Ideal.matmul_constant_zero_apply,
    ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q)
      ((contrEquiv1 (DotDims.transposedRhs M K N) K rfl rfl).symm k) = ix2 p k :=
    funext fun a => Fin.ext (by
      match a with
      | ⟨0, _⟩ => exact lhs_row _ _
      | ⟨1, _⟩ => exact ((DotDims.transposedRhs M K N).lhsIdx_val_of_single rfl _ _).trans hk)
  have er : (DotDims.transposedRhs M K N).rhsIdx (ix2 p q)
      ((contrEquiv1 (DotDims.transposedRhs M K N) K rfl rfl).symm k) = ix2 q k :=
    funext fun a => Fin.ext (by
      match a with
      | ⟨0, _⟩ => exact rhs_row _ _
      | ⟨1, _⟩ => exact ((DotDims.transposedRhs M K N).rhsIdx_val_of_single rfl _ _).trans hk)
  rw [el, er]

end Cert.MatmulNT

end
-- ==== Proof.KernelBlock.lean ====
/-
  One block of the kernel, as the vector operations it performs, read at an entry.

  The kernel body works on one feature matrix f ([512, 4096], rounded to bf16 — the identity on extended reals) and a
  basis ([512, 64]).  Its operations are grouped here into the pieces of the iteration — the logits (a product with the
  TRANSPOSED basis), the softmax down the columns of a [64, 4096] array, the row normalisation by ε + row sum, the
  projection (a product contracting the position axis of both operands), the column normalisation by ε + column
  length, and the final product — and each piece, read at an entry, is the matching function of Cert.EMSpec applied
  to the operands' entries.
-/
import proofs.«153750_j4166118277546_2_alg».proof.KernelIdeal
import proofs.«153750_j4166118277546_2_alg».proof.Proof.EMSpec
import proofs.«153750_j4166118277546_2_alg».proof.Proof.LibColumnReduce
import proofs.«153750_j4166118277546_2_alg».proof.Proof.LibSlabLayout
import proofs.«153750_j4166118277546_2_alg».proof.Proof.LibKeepdimsColumn
import proofs.«153750_j4166118277546_2_alg».proof.Proof.LibMatmulNN
import proofs.«153750_j4166118277546_2_alg».proof.Proof.LibMatmulNT
import Idealize.ShloMosaic.Lib.ValueLayout
import Idealize.ShloMosaic.Lib.ValueIdx
import Idealize.ShloMosaic.Lib.Pipeline.Value
import Idealize.ShloMosaic.PureOps.Ideal.Laws

noncomputable section

namespace Cert.KernelIdeal.Block

open Idealize.ShloMosaic Idealize.ShloMosaic.ValueIdx Cert.KernelIdeal

variable [Facts]
open Facts₀ Facts

/-! ## The pieces, as the kernel spells them -/

/-- logits = (basis rounded and transposed) · f, into zeros. -/
def logitsT (f : FVec Ideal S512x4096 .bf16) (b : FVec Ideal S512x64 .f32) : FVec Ideal S64x4096 .f32 :=
  matmul dot_S64x512_S512x4096_S64x4096_1_0_0_1_n_n none
    (transpose S64x512 [1, 0] (truncf .bf16 b bitsLt_bf16_f32) transposes_S512x64_p1_0_S64x512) f
    (constant S64x4096 .f32 0x00000000#32)

/-- The column maxima of a [64, 4096] array: the running maximum from −∞, then once more against −∞. -/
def colMaxVec (x : FVec Ideal S64x4096 .f32) : FVec Ideal S4096 .f32 :=
  maximumf (broadcast S4096 (Scalar.ofBits .f32 0xFF800000#32))
    (multiReduction .maximumf [0] S4096 x 0xFF800000#32 reduces_S64x4096_S4096 (.inl rfl) rfl)

/-- exp(x − column maximum). -/
def expCols (x : FVec Ideal S64x4096 .f32) : FVec Ideal S64x4096 .f32 :=
  exp (subf x (broadcastTo S64x4096 (shapeCast S1x4096 (colMaxVec x) shapeCasts_S4096_S1x4096) broadcasts_S1x4096_S64x4096))

/-- The softmax down the columns. -/
def softmaxCols (x : FVec Ideal S64x4096 .f32) : FVec Ideal S64x4096 .f32 :=
  divf (expCols x)
    (broadcastTo S64x4096
      (shapeCast S1x4096 (multiReduction .add [0] S4096 (expCols x) 0x00000000#32 reduces_S64x4096_S4096 (.inl rfl) rfl)
        shapeCasts_S4096_S1x4096)
      broadcasts_S1x4096_S64x4096)

/-- Each row divided by ε plus its sum. -/
def l1Rows (a : FVec Ideal S64x4096 .f32) : FVec Ideal S64x4096 .f32 :=
  divf a
    (broadcastTo S64x4096
      (addf (broadcast S64x1 (Scalar.ofBits .f32 0x358637BD#32))
        (shapeCast S64x1 (multiReduction .add [1] S64 a 0x00000000#32 reduces_S64x4096_S64 (.inl rfl) rfl) shapeCasts_S64_S64x1))
      broadcasts_S64x1_S64x4096)

/-- projection = f · (a rounded)ᵀ, contracting the position axis of both, into zeros. -/
def projectT (f : FVec Ideal S512x4096 .bf16) (a : FVec Ideal S64x4096 .f32) : FVec Ideal S512x64 .f32 :=
  matmul dot_S512x4096_S64x4096_S512x64_1_1_0_0_n_n none f (truncf .bf16 a bitsLt_bf16_f32)
    (constant S512x64 .f32 0x00000000#32)

/-- Each column divided by ε plus its Euclidean length. -/
def l2Cols (p : FVec Ideal S512x64 .f32) : FVec Ideal S512x64 .f32 :=
  divf p
    (broadcastTo S512x64
      (addf (broadcast S1x64 (Scalar.ofBits .f32 0x358637BD#32))
        (sqrt (shapeCast S1x64 (multiReduction .add [0] S64 (mulf p p) 0x00000000#32 reduces_S512x64_S64 (.inl rfl) rfl)
          shapeCasts_S64_S1x64)))
      broadcasts_S1x64_S512x64)

/-- The final product (basis rounded) · (attention rounded), into zeros. -/
def reconT (b : FVec Ideal S512x64 .f32) (a : FVec Ideal S64x4096 .f32) : FVec Ideal S512x4096 .f32 :=
  matmul dot_S512x64_S64x4096_S512x4096_1_0_0_1_n_n none (truncf .bf16 b bitsLt_bf16_f32) (truncf .bf16 a bitsLt_bf16_f32)
    (constant S512x4096 .f32 0x00000000#32)

/-- The attention of a round. -/
def attnT (f : FVec Ideal S512x4096 .bf16) (b : FVec Ideal S512x64 .f32) : FVec Ideal S64x4096 .f32 :=
  softmaxCols (logitsT f b)

/-- One round. -/
def stepT (f : FVec Ideal S512x4096 .bf16) (b : FVec Ideal S512x64 .f32) : FVec Ideal S512x64 .f32 :=
  l2Cols (projectT f (l1Rows (attnT f b)))

/-- The whole block: three rounds, then the last attention against the last basis. -/
def blockT (f : FVec Ideal S512x4096 .bf16) (b0 : FVec Ideal S512x64 .f32) : FVec Ideal S512x4096 .f32 :=
  reconT (stepT f (stepT f (stepT f b0))) (attnT f (stepT f (stepT f b0)))

/-! ## Each piece at an entry -/

/-- A [4096] vector laid as one row and repeated down 64 rows reads, at (k, n), the vector at n. -/
theorem rowSpread_apply (v : FVec Ideal S4096 .f32) (k : Fin 64) (n : Fin 4096) :
    broadcastTo S64x4096 (shapeCast S1x4096 v shapeCasts_S4096_S1x4096) broadcasts_S1x4096_S64x4096 (ix2 k n) = v (ix1 n) :=
  (broadcastTo_1b_ab_apply _ broadcasts_S1x4096_S64x4096 k n).trans (shapeCast_a_1a_apply v shapeCasts_S4096_S1x4096 0 n)

theorem logitsT_eq (f : FVec Ideal S512x4096 .bf16) (b : FVec Ideal S512x64 .f32) :
    (fun k n => logitsT f b (ix2 k n)) = EMSpec.logits (fun c n => f (ix2 c n)) (fun c k => b (ix2 c k)) := by
  funext k n
  unfold logitsT EMSpec.logits
  refine (Cert.MatmulNN.matmul_zero_apply dot_S64x512_S512x4096_S64x4096_1_0_0_1_n_n rfl none _ f k n).trans ?_
  refine Finset.sum_congr rfl fun c _ => ?_
  rw [transpose_ix2_apply]
  rfl

theorem colMaxVec_apply (x : FVec Ideal S64x4096 .f32) (n : Fin 4096) :
    colMaxVec x (ix1 n) = EMSpec.colMax (fun k n => x (ix2 k n)) n := by
  unfold colMaxVec EMSpec.colMax
  show max (Ideal.ofBits .f32 0xFF800000#32) _ = max EMSpec.ninf _
  refine congrArg (max _) ?_
  exact Cert.ColumnReduce.colMax_apply x _ reduces_S64x4096_S4096 _ _ n

theorem expCols_eq (x : FVec Ideal S64x4096 .f32) :
    (fun k n => expCols x (ix2 k n)) = EMSpec.expo (fun k n => x (ix2 k n)) := by
  funext k n
  unfold expCols EMSpec.expo
  show Ideal.exp (x (ix2 k n) - _) = _
  rw [rowSpread_apply, colMaxVec_apply]

theorem softmaxCols_eq (x : FVec Ideal S64x4096 .f32) :
    (fun k n => softmaxCols x (ix2 k n)) = EMSpec.softmax (fun k n => x (ix2 k n)) := by
  funext k n
  unfold softmaxCols EMSpec.softmax
  show Ideal.div (expCols x (ix2 k n)) _ = _
  rw [rowSpread_apply]
  refine congrArg₂ Ideal.div (congrFun (congrFun (expCols_eq x) k) n) ?_
  refine (Cert.ColumnReduce.colSum_apply (expCols x) _ reduces_S64x4096_S4096 _ _ n).trans ?_
  exact Finset.sum_congr rfl fun k' _ => congrFun (congrFun (expCols_eq x) k') n

theorem l1Rows_eq (a : FVec Ideal S64x4096 .f32) :
    (fun k n => l1Rows a (ix2 k n)) = EMSpec.l1 (fun k n => a (ix2 k n)) := by
  funext k n
  unfold l1Rows EMSpec.l1
  show Ideal.div (a (ix2 k n)) _ = _
  refine congrArg (Ideal.div _) ?_
  refine (Cert.KeepdimsColumn.broadcastTo_a1_ab_apply _ broadcasts_S64x1_S64x4096 k n).trans ?_
  show Ideal.ofBits .f32 0x358637BD#32 + _ = EMSpec.eps + _
  refine congrArg (EMSpec.eps + ·) ?_
  refine (Cert.KeepdimsColumn.shapeCast_a_a1_apply _ shapeCasts_S64_S64x1 k 0).trans ?_
  exact Cert.SlabLayout.rowSum_apply a _ reduces_S64x4096_S64 _ _ k

theorem projectT_eq (f : FVec Ideal S512x4096 .bf16) (a : FVec Ideal S64x4096 .f32) :
    (fun c k => projectT f a (ix2 c k)) = EMSpec.project (fun c n => f (ix2 c n)) (fun k n => a (ix2 k n)) := by
  funext c k
  unfold projectT EMSpec.project
  exact Cert.MatmulNT.matmul_zero_apply dot_S512x4096_S64x4096_S512x64_1_1_0_0_n_n rfl none f _ c k

theorem l2Cols_eq (p : FVec Ideal S512x64 .f32) :
    (fun c k => l2Cols p (ix2 c k)) = EMSpec.l2 (fun c k => p (ix2 c k)) := by
  funext c k
  unfold l2Cols EMSpec.l2
  show Ideal.div (p (ix2 c k)) _ = _
  refine congrArg (Ideal.div _) ?_
  refine (broadcastTo_1b_ab_apply _ broadcasts_S1x64_S512x64 c k).trans ?_
  show Ideal.ofBits .f32 0x358637BD#32 + Ideal.sqrt _ = EMSpec.eps + Ideal.sqrt _
  refine congrArg (fun z => EMSpec.eps + Ideal.sqrt z) ?_
  refine (shapeCast_a_1a_apply _ shapeCasts_S64_S1x64 0 k).trans ?_
  exact Cert.ColumnReduce.colSum_apply (mulf p p) _ reduces_S512x64_S64 _ _ k

theorem reconT_eq (b : FVec Ideal S512x64 .f32) (a : FVec Ideal S64x4096 .f32) :
    (fun c n => reconT b a (ix2 c n)) = EMSpec.recon (fun c k => b (ix2 c k)) (fun k n => a (ix2 k n)) := by
  funext c n
  unfold reconT EMSpec.recon
  exact Cert.MatmulNN.matmul_zero_apply dot_S512x64_S64x4096_S512x4096_1_0_0_1_n_n rfl none _ _ c n

theorem attnT_eq (f : FVec Ideal S512x4096 .bf16) (b : FVec Ideal S512x64 .f32) :
    (fun k n => attnT f b (ix2 k n)) = EMSpec.attn (fun c n => f (ix2 c n)) (fun c k => b (ix2 c k)) := by
  unfold attnT EMSpec.attn
  rw [softmaxCols_eq, logitsT_eq]

theorem stepT_eq (f : FVec Ideal S512x4096 .bf16) (b : FVec Ideal S512x64 .f32) :
    (fun c k => stepT f b (ix2 c k)) = EMSpec.step (fun c n => f (ix2 c n)) (fun c k => b (ix2 c k)) := by
  unfold stepT EMSpec.step
  rw [l2Cols_eq, projectT_eq, l1Rows_eq, attnT_eq]

/-- THE BLOCK at an entry: the specification's result of the operands' entries. -/
theorem blockT_eq (f : FVec Ideal S512x4096 .bf16) (b0 : FVec Ideal S512x64 .f32) :
    (fun c n => blockT f b0 (ix2 c n)) = EMSpec.result (fun c n => f (ix2 c n)) (fun c k => b0 (ix2 c k)) := by
  unfold blockT EMSpec.result
  rw [reconT_eq, attnT_eq]
  simp only [stepT_eq]

end Cert.KernelIdeal.Block

end
-- ==== Proof.KernelValue.lean ====
/-
  What the kernel's result array holds after the run, entry by entry.

  Grid point t stages block t of the feature array ([1, 512, 4096] out of [16, 512, 4096]) and the whole normalised
  basis ([1, 512, 64]), runs the block computation of KernelBlock.lean and writes block t of the output.  So the output
  array is ONE function of the two arrays the region finds: at (t, c, n) the specification's result for the features
  of block t and the basis.  The features the region finds are the first argument with its last two axes merged, the
  basis it finds is the second argument with every column divided by ε plus its length, and the program's result is the
  output array with its last axis split again.
-/
import proofs.«153750_j4166118277546_2_alg».proof.Proof.Gen.KernelIdeal.Frame
import proofs.«153750_j4166118277546_2_alg».proof.Proof.KernelBlock
import Idealize.ShloMosaic.Lib.Pipeline.Value
import Idealize.ShloMosaic.Lib.StableHlo.Run

set_option maxRecDepth 16384

noncomputable section

namespace Cert.KernelIdeal.HandValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl

/-! ## The body's one store, at an entry -/

/-- The stored value is the block computation of the two loaded blocks (the loaded feature block with its unit axis
    dropped and rounded, the loaded basis with its unit axis dropped), given its unit axis back. -/
theorem pay_eq (x0 : Vec Ideal S1x512x4096 .f32) (x1 : Vec Ideal S1x512x64 .f32) :
    k0_pay1 (k0_pay5 (k0_pay2 x0) (k0_pay3 x0 x1) (k0_pay4 x0 x1)) (k0_pay6 (k0_pay2 x0) (k0_pay3 x0 x1) (k0_pay4 x0 x1))
        (k0_pay7 (k0_pay2 x0) (k0_pay3 x0 x1) (k0_pay4 x0 x1))
      = shapeCast S1x512x4096
          (Block.blockT (truncf .bf16 (shapeCast S512x4096 x0 shapeCasts_S1x512x4096_S512x4096) bitsLt_bf16_f32)
            (shapeCast S512x64 x1 shapeCasts_S1x512x64_S512x64))
          shapeCasts_S512x4096_S1x512x4096 := rfl

/-- At (u, c, n) it is the specification's result of the loaded blocks' entries. -/
theorem pay_at (x0 : Vec Ideal S1x512x4096 .f32) (x1 : Vec Ideal S1x512x64 .f32) (u : Fin 1) (c : Fin 512) (n : Fin 4096) :
    k0_pay1 (k0_pay5 (k0_pay2 x0) (k0_pay3 x0 x1) (k0_pay4 x0 x1)) (k0_pay6 (k0_pay2 x0) (k0_pay3 x0 x1) (k0_pay4 x0 x1))
        (k0_pay7 (k0_pay2 x0) (k0_pay3 x0 x1) (k0_pay4 x0 x1)) (ix3 u c n)
      = EMSpec.result (fun c n => x0 (ix3 (0 : Fin 1) c n)) (fun c k => x1 (ix3 (0 : Fin 1) c k)) c n := by
  rw [pay_eq]
  refine (shapeCast_ab_1ab_apply _ shapeCasts_S512x4096_S1x512x4096 u c n).trans ?_
  refine (congrFun (congrFun (Block.blockT_eq _ _) c) n).trans ?_
  have e0 : (fun c n => (truncf .bf16 (shapeCast S512x4096 x0 shapeCasts_S1x512x4096_S512x4096) bitsLt_bf16_f32 :
      FVec Ideal S512x4096 .bf16) (ix2 c n)) = fun c n => x0 (ix3 (0 : Fin 1) c n) :=
    funext fun c => funext fun n => shapeCast_1ab_ab_apply x0 shapeCasts_S1x512x4096_S512x4096 c n
  have e1 : (fun c k => shapeCast S512x64 x1 shapeCasts_S1x512x64_S512x64 (ix2 c k)) = fun c k => x1 (ix3 (0 : Fin 1) c k) :=
    funext fun c => funext fun k => shapeCast_1ab_ab_apply x1 shapeCasts_S1x512x64_S512x64 c k
  rw [e0, e1]

/-! ## From blocks to the array -/

/-- The output array as one function of the arrays the region finds: at (t, c, n), the result for block t of the
    features and the basis. -/
def G (f : S16x512x4096.Idx → EReal) (b : S1x512x64.Idx → EReal) : S16x512x4096.Idx → EReal :=
  fun i => EMSpec.result (fun c n => f (ix3 (i 0) c n)) (fun c k => b (ix3 (0 : Fin 1) c k)) (i 1) (i 2)

/-- The printed index maps, decided over the 16 points: the feature and output blocks move with the point along the
    first axis, the basis block never moves. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = 0 ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- Every block along the first axis is some point's. -/
theorem idx_onto : ∀ q : Fin 16, ∃ t : Fin cfg0.N, t.val = q.val :=
  (by decide +kernel : ∀ q : Fin 16, ∃ t : Fin grid0.N, t.val = q.val)

/-- WHAT POINT t WRITES BACK is block t of G of the arrays the region finds. -/
theorem flushed_eq (c : Dev nD) (t : Fin cfg0.N) :
    (dats m 0 c).flushed 2 t = ((cfg0.win 2).blk t).view.read (Elt Ideal) (G (V m c main_v0) (V m c main_v8)) := by
  show (cfg0.win 2).cut (grid0.coords t) ((dats m 0 c).after 2 t) = _
  rw [after0_2]
  unfold out0_2
  rw [View.canon_unit_zero hz3]
  simp only [View.ld_unit_zero (S := S1x512x4096) hz3, View.ld_unit_zero (S := S1x512x64) hz3]
  obtain ⟨e00, e01, e02, e10, e11, e12, e20, e21, e22⟩ := idx_facts t
  funext j
  obtain ⟨u, p, n, rfl⟩ : ∃ (u : Fin 1) (p : Fin 512) (n : Fin 4096), j = ix3 u p n := ⟨j 0, j 1, j 2, eq_ix3 j⟩
  refine (pay_at (iblk m c 0 t) (iblk m c 1 t) u p n).trans ?_
  show _ = G (V m c main_v0) (V m c main_v8) (((cfg0.win 2).blk t).view.emb (ix3 u p n))
  have hu : u.val = 0 := by omega
  have hout : ((cfg0.win 2).blk t).view.emb (ix3 u p n) = ix3 (⟨t.val, Nat.lt_of_lt_of_eq t.isLt N_0⟩ : Fin 16) p n := by
    funext a; apply Fin.ext
    match a with
    | ⟨0, _⟩ => show win0_2.index t (0 : Fin 3) * 1 + 1 * u.val = t.val; omega
    | ⟨1, _⟩ => show win0_2.index t (1 : Fin 3) * 512 + 1 * p.val = p.val; omega
    | ⟨2, _⟩ => show win0_2.index t (2 : Fin 3) * 4096 + 1 * n.val = n.val; omega
  rw [hout]
  unfold G
  have hf : (fun c' n' => iblk m c 0 t (ix3 (0 : Fin 1) c' n'))
      = fun c' n' => V m c main_v0 (ix3 (⟨t.val, Nat.lt_of_lt_of_eq t.isLt N_0⟩ : Fin 16) c' n') := by
    funext c' n'
    show V m c main_v0 (((cfg0.win 0).blk t).view.emb (ix3 (0 : Fin 1) c' n')) = _
    refine congrArg _ (funext fun a => Fin.ext ?_)
    match a with
    | ⟨0, _⟩ => show win0_0.index t (0 : Fin 3) * 1 + 1 * (0 : Fin 1).val = t.val; simp only [Fin.val_zero]; omega
    | ⟨1, _⟩ => show win0_0.index t (1 : Fin 3) * 512 + 1 * c'.val = c'.val; omega
    | ⟨2, _⟩ => show win0_0.index t (2 : Fin 3) * 4096 + 1 * n'.val = n'.val; omega
  have hb : (fun c' k' => iblk m c 1 t (ix3 (0 : Fin 1) c' k')) = fun c' k' => V m c main_v8 (ix3 (0 : Fin 1) c' k') := by
    funext c' k'
    show V m c main_v8 (((cfg0.win 1).blk t).view.emb (ix3 (0 : Fin 1) c' k')) = _
    refine congrArg _ (funext fun a => Fin.ext ?_)
    match a with
    | ⟨0, _⟩ => show win0_1.index t (0 : Fin 3) * 1 + 1 * (0 : Fin 1).val = (0 : Fin 1).val; simp only [Fin.val_zero]; omega
    | ⟨1, _⟩ => show win0_1.index t (1 : Fin 3) * 512 + 1 * c'.val = c'.val; omega
    | ⟨2, _⟩ => show win0_1.index t (2 : Fin 3) * 64 + 1 * k'.val = k'.val; omega
  rw [hf, hb]

/-- An index of the array is in point t's block iff each coordinate is in the block's range on its axis. -/
theorem mem_blk (t : Fin cfg0.N) (i : S16x512x4096.Idx) :
    i ∈ ((cfg0.win 2).blk t).view.set ↔ ∀ a : Fin 3, win0_2.index t a * S1x512x4096.size a ≤ (i a).val ∧ (i a).val < win0_2.index t a * S1x512x4096.size a + S1x512x4096.size a := by
  show i ∈ ((View.whole main_v9).slice (win0_2.rect t)).set ↔ _
  rw [View.set_slice_whole, Rect.mem_set_unit]
  exact Iff.rfl

/-- THE ARRAY after the run: G of the arrays the region finds, everywhere (the 16 blocks cover it). -/
theorem final (c : Dev nD) : (dats m 0 c).arrAt 2 cfg0.N = G (V m c main_v0) (V m c main_v8) :=
  (dats m 0 c).arrAt_eq_of_cover 2 (G (V m c main_v0) (V m c main_v8)) (fun t _ => flushed_eq m c t) fun i => by
    obtain ⟨t, ht⟩ := idx_onto (i 0)
    obtain ⟨e00, e01, e02, e10, e11, e12, e20, e21, e22⟩ := idx_facts t
    refine ⟨t, flush0_2 t, ?_⟩
    rw [mem_blk]
    intro a
    have h1 : (i 1).val < 512 := (i 1).isLt
    have h2 : (i 2).val < 4096 := (i 2).isLt
    match a with
    | ⟨0, _⟩ => show win0_2.index t (0 : Fin 3) * 1 ≤ (i 0).val ∧ (i 0).val < win0_2.index t (0 : Fin 3) * 1 + 1; omega
    | ⟨1, _⟩ => show win0_2.index t (1 : Fin 3) * 512 ≤ (i 1).val ∧ (i 1).val < win0_2.index t (1 : Fin 3) * 512 + 512; omega
    | ⟨2, _⟩ => show win0_2.index t (2 : Fin 3) * 4096 ≤ (i 2).val ∧ (i 2).val < win0_2.index t (2 : Fin 3) * 4096 + 4096; omega

/-! ## The host operations before and after the region -/

/-- The sum over the channels of the squares of the second argument's entries, per component. -/
def sqSum (x1 : FVec Ideal S1x512x64 .f32) : FVec Ideal S1x64 .f32 :=
  Host.reduceAdd (mulf x1 x1) (constant (F := Ideal) S_ .f32 0x00000000#32) reducesTo_S1x512x64_S1x64_d1 h_S_

/-- ε plus the length of each column, kept with two unit axes. -/
def denomRow (x1 : FVec Ideal S1x512x64 .f32) : FVec Ideal S1x1x64 .f32 :=
  addf (broadcastInDim S1x1x64 ![] bcast_S_S1x1x64 (constant (F := Ideal) S_ .f32 0x358637BD#32))
    (Host.sqrt (broadcastInDim S1x1x64 ![0, 2] bcast_S1x64_S1x1x64_0_2 (sqSum x1)))

/-- The second argument with every column divided by ε plus its length over the channels: what the host computes
    before the region. -/
def normBasis (x1 : FVec Ideal S1x512x64 .f32) : FVec Ideal S1x512x64 .f32 :=
  Host.divf x1 (broadcastInDim S1x512x64 ![0, 1, 2] bcast_S1x1x64_S1x512x64_0_1_2 (denomRow x1))

/-- The region finds the features as the first argument with its last two axes merged. -/
theorem V_v0 (c : Dev nD) : (V m c main_v0 : S16x512x4096.Idx → EReal)
    = shapeCast S16x512x4096 (m ((c : Thread nD τ).loc main_arg0)) shapeCasts_S16x512x64x64_S16x512x4096 := by
  show StableHlo.after hostOps0 (fun b => m (c, b)) (Proc.devRef .tc main_v0) = _
  after_results
  rfl

/-- The region finds the basis normalised. -/
theorem V_v8 (c : Dev nD) : (V m c main_v8 : S1x512x64.Idx → EReal) = normBasis (m ((c : Thread nD τ).loc main_arg1)) := by
  show StableHlo.after hostOps0 (fun b => m (c, b)) (Proc.devRef .tc main_v8) = _
  after_results
  rfl

theorem sqSum_apply (x1 : FVec Ideal S1x512x64 .f32) (k : Fin 64) :
    sqSum x1 (ix2 (0 : Fin 1) k) = ∑ q : Fin 512, x1 (ix3 (0 : Fin 1) q k) * x1 (ix3 (0 : Fin 1) q k) := by
  unfold sqSum
  simp only [Host.reduceAdd, Ideal.hostReduceAdd_def]
  rw [Ideal.hostReduceAdd_single reducesTo_S1x512x64_S1x64_d1 (by decide)]
  show Ideal.ofBits .f32 0x00000000#32 + _ = _
  rw [Ideal.ofBits_zero_f32, zero_add]
  refine Finset.sum_congr rfl fun q _ => ?_
  exact congrArg (mulf x1 x1) (funext fun a => Fin.ext (by match a with | ⟨0, _⟩ => rfl | ⟨1, _⟩ => rfl | ⟨2, _⟩ => rfl))

theorem denomRow_apply (x1 : FVec Ideal S1x512x64 .f32) (k : Fin 64) :
    denomRow x1 (ix3 (0 : Fin 1) (0 : Fin 1) k) = EMSpec.eps + Ideal.sqrt (sqSum x1 (ix2 (0 : Fin 1) k)) := by
  unfold denomRow
  show broadcastInDim S1x1x64 ![] bcast_S_S1x1x64 (constant (F := Ideal) S_ .f32 0x358637BD#32) (ix3 (0 : Fin 1) (0 : Fin 1) k)
    + Ideal.sqrt (broadcastInDim S1x1x64 ![0, 2] bcast_S1x64_S1x1x64_0_2 (sqSum x1) (ix3 (0 : Fin 1) (0 : Fin 1) k)) = _
  rw [broadcastInDim_apply _ bcast_S_S1x1x64 _ (ix3 (0 : Fin 1) (0 : Fin 1) k) (fun a => a.elim0) (fun a => a.elim0),
    broadcastInDim_apply _ bcast_S1x64_S1x1x64_0_2 (sqSum x1) (ix3 (0 : Fin 1) (0 : Fin 1) k) (ix2 (0 : Fin 1) k) (fun a => match a with
    | ⟨0, _⟩ => by show 0 = if (1 : Nat) = 1 then 0 else (0 : Fin 1).val; rw [if_pos rfl]
    | ⟨1, _⟩ => by show k.val = if (64 : Nat) = 1 then 0 else k.val; rw [if_neg (by decide)])]
  rfl

/-- The normalised basis at (0, c, k) is the specification's column normalisation of the second argument. -/
theorem normBasis_eq (x1 : FVec Ideal S1x512x64 .f32) :
    (fun c k => normBasis x1 (ix3 (0 : Fin 1) c k)) = EMSpec.l2 (fun c k => x1 (ix3 (0 : Fin 1) c k)) := by
  funext c k
  unfold normBasis EMSpec.l2
  show Ideal.div (x1 (ix3 (0 : Fin 1) c k))
    (broadcastInDim S1x512x64 ![0, 1, 2] bcast_S1x1x64_S1x512x64_0_1_2 (denomRow x1) (ix3 (0 : Fin 1) c k)) = _
  rw [broadcastInDim_apply _ bcast_S1x1x64_S1x512x64_0_1_2 (denomRow x1) (ix3 (0 : Fin 1) c k) (ix3 (0 : Fin 1) (0 : Fin 1) k) (fun a => match a with
    | ⟨0, _⟩ => by show 0 = if (1 : Nat) = 1 then 0 else (0 : Fin 1).val; rw [if_pos rfl]
    | ⟨1, _⟩ => by show 0 = if (1 : Nat) = 1 then 0 else c.val; rw [if_pos rfl]
    | ⟨2, _⟩ => by show k.val = if (64 : Nat) = 1 then 0 else k.val; rw [if_neg (by decide)]),
    denomRow_apply, sqSum_apply]

/-- The program's result as one function of its arguments. -/
def result (x0 : FVec Ideal S16x512x64x64 .f32) (x1 : FVec Ideal S1x512x64 .f32) : FVec Ideal S16x512x64x64 .f32 :=
  shapeCast S16x512x64x64 (G (shapeCast S16x512x4096 x0 shapeCasts_S16x512x64x64_S16x512x4096) (normBasis x1))
    shapeCasts_S16x512x4096_S16x512x64x64

/-- After the region the host splits the output array's last axis: the program's result. -/
theorem tail_eq (c : Dev nD) :
    Pipeline.afterTail₀ cfgs (dats m) 0 (V0 m) [hostOps1] c main_v10
      = result (m ((c : Thread nD τ).loc main_arg0)) (m ((c : Thread nD τ).loc main_arg1)) := by
  unfold Pipeline.afterTail₀
  show StableHlo.after hostOps1 _ (Proc.devRef .tc main_v10) = _
  after_results
  unfold result
  refine congrArg (fun z => shapeCast S16x512x64x64 z shapeCasts_S16x512x4096_S16x512x64x64) ?_
  refine ((Pipeline.withArrays_arr spec0 launch0.win.arr_inj c _ _ 2).trans (final m c)).trans ?_
  rw [V_v0, V_v8]

/-! ## The run, read -/

/-- Every weakly fair execution of the kernel program terminates with its result at `result` of the arguments and the
    arguments unchanged. -/
theorem run : θ_run defs (onTc (τ := τ) (main (F := Ideal))) ⟨m, fun _ => 0, ρ⟩ fun r => ∀ c : Dev nD,
      r.2.mem ((c.tc : Thread nD τ).loc main_v10) = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v10 (Pipeline.mem_restRefs_of main_v10 (by decide) (by decide))).trans (tail_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.HandValue

end
-- ==== Proof.RefOps.lean ====
/-
  The reference's operations on the batched arrays, one at a time, read at an entry: the three batched products as
  sums over the contracted axis, the sums over one axis, the maximum over the last axis as a fold of max, and the
  repetitions of an array along a new or a unit axis.  The pieces of the iteration the reference builds from them are
  defined here too; Proof/RefBlock.lean reads those pieces at a block.
-/
import proofs.«153750_j4166118277546_2_alg».proof.Proof.Gen.ReferenceIdeal
import proofs.«153750_j4166118277546_2_alg».proof.Proof.EMSpec
import Idealize.ShloMosaic.Lib.Pipeline.Value
import Idealize.ShloMosaic.Lib.ValueIdx
import Idealize.ShloMosaic.PureOps.Ideal.Laws
import Idealize.ShloMosaic.PureOps.Reduce

noncomputable section

namespace Cert.ReferenceIdeal.Block

open Idealize.ShloMosaic Idealize.ShloMosaic.ValueIdx Cert.ReferenceIdeal

open Facts₀ Facts

/-- The contents of an f32 array of a given shape, over the extended reals. -/
abbrev Arr (S : Shape) := FVec Ideal S .f32

/-! ## The pieces, as the reference spells them -/

/-- Σ_c f[t, c, n] · b[t, c, k], laid [t, n, k]. -/
def logitsH (f : Arr S16x512x4096) (b : Arr S16x512x64) : Arr S16x4096x64 :=
  Host.dotGeneral dot_S16x512x4096_S16x512x64_S16x4096x64_1_1_2_2_0_0 none f b

/-- The maximum over the last axis (from −∞, then once more against −∞). -/
def maxK (x : Arr S16x4096x64) : Arr S16x4096 :=
  maximumf (broadcastInDim S16x4096 ![] bcast_S_S16x4096 (constant (F := Ideal) S_ .f32 0xFF800000#32))
    (Host.reduce FloatOps.maximumf x (constant (F := Ideal) S_ .f32 0xFF800000#32) reducesTo_S16x4096x64_S16x4096_d2 h_S_)

/-- A [16, 4096] array repeated along a new last axis of 64. -/
def spreadK (v : Arr S16x4096) : Arr S16x4096x64 :=
  broadcastInDim S16x4096x64 ![0, 1, 2] bcast_S16x4096x1_S16x4096x64_0_1_2
    (broadcastInDim S16x4096x1 ![0, 1] bcast_S16x4096_S16x4096x1_0_1 v)

/-- exp(x − max over the last axis). -/
def expK (x : Arr S16x4096x64) : Arr S16x4096x64 := Host.exp (subf x (spreadK (maxK x)))

/-- The softmax over the last axis. -/
def softmaxK (x : Arr S16x4096x64) : Arr S16x4096x64 :=
  Host.divf (expK x)
    (spreadK (Host.reduceAdd (expK x) (constant (F := Ideal) S_ .f32 0x00000000#32) reducesTo_S16x4096x64_S16x4096_d2 h_S_))

/-- A [16, 64] array given a unit middle axis and repeated along it 4096 times. -/
def spreadN (v : Arr S16x1x64) : Arr S16x4096x64 :=
  broadcastInDim S16x4096x64 ![0, 1, 2] bcast_S16x1x64_S16x4096x64_0_1_2 v

/-- ε everywhere in a [16, 1, 64] array. -/
def epsRow : Arr S16x1x64 := broadcastInDim S16x1x64 ![] bcast_S_S16x1x64 (constant (F := Ideal) S_ .f32 0x358637BD#32)

/-- Each (block, component) divided by ε plus its sum over the positions. -/
def l1N (a : Arr S16x4096x64) : Arr S16x4096x64 :=
  Host.divf a
    (spreadN (addf epsRow
      (broadcastInDim S16x1x64 ![0, 2] bcast_S16x64_S16x1x64_0_2
        (Host.reduceAdd a (constant (F := Ideal) S_ .f32 0x00000000#32) reducesTo_S16x4096x64_S16x64_d1 h_S_))))

/-- Σ_n f[t, c, n] · a[t, n, k]. -/
def projectH (f : Arr S16x512x4096) (a : Arr S16x4096x64) : Arr S16x512x64 :=
  Host.dotGeneral dot_S16x512x4096_S16x4096x64_S16x512x64_2_1_1_2_0_0 none f a

/-- The sum over the channels of the squares, per block and component. -/
def sqSumC (b : Arr S16x512x64) : Arr S16x64 :=
  Host.reduceAdd (mulf b b) (constant (F := Ideal) S_ .f32 0x00000000#32) reducesTo_S16x512x64_S16x64_d1 h_S_

/-- The Euclidean length over the channel axis, kept as a unit axis. -/
def normCols (b : Arr S16x512x64) : Arr S16x1x64 :=
  Host.sqrt (broadcastInDim S16x1x64 ![0, 2] bcast_S16x64_S16x1x64_0_2 (sqSumC b))

/-- Each column divided by ε plus its length. -/
def l2Cols (b : Arr S16x512x64) : Arr S16x512x64 :=
  Host.divf b (broadcastInDim S16x512x64 ![0, 1, 2] bcast_S16x1x64_S16x512x64_0_1_2 (addf epsRow (normCols b)))

/-- Σ_k b[t, c, k] · a[t, n, k]. -/
def reconH (b : Arr S16x512x64) (a : Arr S16x4096x64) : Arr S16x512x4096 :=
  Host.dotGeneral dot_S16x512x64_S16x4096x64_S16x512x4096_2_2_1_1_0_0 none b a

/-- The attention of a round. -/
def attnH (f : Arr S16x512x4096) (b : Arr S16x512x64) : Arr S16x4096x64 := softmaxK (logitsH f b)

/-- One round. -/
def stepH (f : Arr S16x512x4096) (b : Arr S16x512x64) : Arr S16x512x64 := l2Cols (projectH f (l1N (attnH f b)))

/-- The sum over the channels of the squares of the given basis, per component. -/
def sqSum1 (x1 : Arr S1x512x64) : Arr S1x64 :=
  Host.reduceAdd (mulf x1 x1) (constant (F := Ideal) S_ .f32 0x00000000#32) reducesTo_S1x512x64_S1x64_d1 h_S_

/-- ε plus the length of each column of the given basis, kept with two unit axes. -/
def denomRow1 (x1 : Arr S1x512x64) : Arr S1x1x64 :=
  addf (broadcastInDim S1x1x64 ![] bcast_S_S1x1x64 (constant (F := Ideal) S_ .f32 0x358637BD#32))
    (Host.sqrt (broadcastInDim S1x1x64 ![0, 2] bcast_S1x64_S1x1x64_0_2 (sqSum1 x1)))

/-- The given basis with every column divided by ε plus its length. -/
def normBasis1 (x1 : Arr S1x512x64) : Arr S1x512x64 :=
  Host.divf x1 (broadcastInDim S1x512x64 ![0, 1, 2] bcast_S1x1x64_S1x512x64_0_1_2 (denomRow1 x1))

/-- The given basis with columns normalised, then repeated for the 16 blocks. -/
def initH (x1 : Arr S1x512x64) : Arr S16x512x64 :=
  broadcastInDim S16x512x64 ![0, 1, 2] bcast_S1x512x64_S16x512x64_0_1_2 (normBasis1 x1)

/-- The whole computation on the batched arrays. -/
def resultH (f : Arr S16x512x4096) (x1 : Arr S1x512x64) : Arr S16x512x4096 :=
  reconH (stepH f (stepH f (stepH f (initH x1)))) (attnH f (stepH f (stepH f (initH x1))))

/-! ## The batched products at an entry -/

theorem lhs_logits_0 (i : S16x4096x64.Idx) (q : dot_S16x512x4096_S16x512x64_S16x4096x64_1_1_2_2_0_0.contr.Idx) :
    (dot_S16x512x4096_S16x512x64_S16x4096x64_1_1_2_2_0_0.lhsIdx i q 0).val = (i 0).val := by
  unfold DotDims.lhsIdx
  rw [dif_pos (show (0 : Fin S16x512x4096.rank) ∈ dot_S16x512x4096_S16x512x64_S16x4096x64_1_1_2_2_0_0.lhsBatch by decide)]
  rfl
theorem lhs_logits_1 (i : S16x4096x64.Idx) (q : dot_S16x512x4096_S16x512x64_S16x4096x64_1_1_2_2_0_0.contr.Idx) :
    (dot_S16x512x4096_S16x512x64_S16x4096x64_1_1_2_2_0_0.lhsIdx i q 1).val = (q ⟨0, by decide⟩).val :=
  dot_S16x512x4096_S16x512x64_S16x4096x64_1_1_2_2_0_0.lhsIdx_val_of_single rfl i q
theorem lhs_logits_2 (i : S16x4096x64.Idx) (q : dot_S16x512x4096_S16x512x64_S16x4096x64_1_1_2_2_0_0.contr.Idx) :
    (dot_S16x512x4096_S16x512x64_S16x4096x64_1_1_2_2_0_0.lhsIdx i q 2).val = (i 1).val := by
  unfold DotDims.lhsIdx
  rw [dif_neg (show ¬(2 : Fin S16x512x4096.rank) ∈ dot_S16x512x4096_S16x512x64_S16x4096x64_1_1_2_2_0_0.lhsBatch by decide), dif_pos (show (2 : Fin S16x512x4096.rank) ∈ dot_S16x512x4096_S16x512x64_S16x4096x64_1_1_2_2_0_0.lhsNonContracting by decide)]
  rfl
theorem rhs_logits_0 (i : S16x4096x64.Idx) (q : dot_S16x512x4096_S16x512x64_S16x4096x64_1_1_2_2_0_0.contr.Idx) :
    (dot_S16x512x4096_S16x512x64_S16x4096x64_1_1_2_2_0_0.rhsIdx i q 0).val = (i 0).val := by
  unfold DotDims.rhsIdx
  rw [dif_pos (show (0 : Fin S16x512x64.rank) ∈ dot_S16x512x4096_S16x512x64_S16x4096x64_1_1_2_2_0_0.rhsBatch by decide)]
  rfl
theorem rhs_logits_1 (i : S16x4096x64.Idx) (q : dot_S16x512x4096_S16x512x64_S16x4096x64_1_1_2_2_0_0.contr.Idx) :
    (dot_S16x512x4096_S16x512x64_S16x4096x64_1_1_2_2_0_0.rhsIdx i q 1).val = (q ⟨0, by decide⟩).val :=
  dot_S16x512x4096_S16x512x64_S16x4096x64_1_1_2_2_0_0.rhsIdx_val_of_single rfl i q
theorem rhs_logits_2 (i : S16x4096x64.Idx) (q : dot_S16x512x4096_S16x512x64_S16x4096x64_1_1_2_2_0_0.contr.Idx) :
    (dot_S16x512x4096_S16x512x64_S16x4096x64_1_1_2_2_0_0.rhsIdx i q 2).val = (i 2).val := by
  unfold DotDims.rhsIdx
  rw [dif_neg (show ¬(2 : Fin S16x512x64.rank) ∈ dot_S16x512x4096_S16x512x64_S16x4096x64_1_1_2_2_0_0.rhsBatch by decide), dif_pos (show (2 : Fin S16x512x64.rank) ∈ dot_S16x512x4096_S16x512x64_S16x4096x64_1_1_2_2_0_0.rhsNonContracting by decide)]
  rfl

theorem dot_logits_apply (y0 : Arr S16x512x4096) (y1 : Arr S16x512x64) (t : Fin 16) (n : Fin 4096) (j : Fin 64) :
    Host.dotGeneral dot_S16x512x4096_S16x512x64_S16x4096x64_1_1_2_2_0_0 none y0 y1 (ix3 t n j) = ∑ k : Fin 512, y0 (ix3 t k n) * y1 (ix3 t k j) := by
  simp only [Host.dotGeneral]
  rw [Ideal.dotGeneral_apply, ← Equiv.sum_comp (contrEquiv1 dot_S16x512x4096_S16x512x64_S16x4096x64_1_1_2_2_0_0 512 rfl rfl).symm]
  refine Finset.sum_congr rfl fun k _ => ?_
  have hk := contrEquiv1_symm_val dot_S16x512x4096_S16x512x64_S16x4096x64_1_1_2_2_0_0 512 rfl rfl k
  have el : dot_S16x512x4096_S16x512x64_S16x4096x64_1_1_2_2_0_0.lhsIdx (ix3 t n j) ((contrEquiv1 dot_S16x512x4096_S16x512x64_S16x4096x64_1_1_2_2_0_0 512 rfl rfl).symm k) = ix3 t k n :=
    funext fun a => Fin.ext (by
      match a with
      | ⟨0, _⟩ => exact lhs_logits_0 _ _
      | ⟨1, _⟩ => exact (lhs_logits_1 _ _).trans hk
      | ⟨2, _⟩ => exact lhs_logits_2 _ _)
  have er : dot_S16x512x4096_S16x512x64_S16x4096x64_1_1_2_2_0_0.rhsIdx (ix3 t n j) ((contrEquiv1 dot_S16x512x4096_S16x512x64_S16x4096x64_1_1_2_2_0_0 512 rfl rfl).symm k) = ix3 t k j :=
    funext fun a => Fin.ext (by
      match a with
      | ⟨0, _⟩ => exact rhs_logits_0 _ _
      | ⟨1, _⟩ => exact (rhs_logits_1 _ _).trans hk
      | ⟨2, _⟩ => exact rhs_logits_2 _ _)
  rw [el, er]

theorem lhs_project_0 (i : S16x512x64.Idx) (q : dot_S16x512x4096_S16x4096x64_S16x512x64_2_1_1_2_0_0.contr.Idx) :
    (dot_S16x512x4096_S16x4096x64_S16x512x64_2_1_1_2_0_0.lhsIdx i q 0).val = (i 0).val := by
  unfold DotDims.lhsIdx
  rw [dif_pos (show (0 : Fin S16x512x4096.rank) ∈ dot_S16x512x4096_S16x4096x64_S16x512x64_2_1_1_2_0_0.lhsBatch by decide)]
  rfl
theorem lhs_project_1 (i : S16x512x64.Idx) (q : dot_S16x512x4096_S16x4096x64_S16x512x64_2_1_1_2_0_0.contr.Idx) :
    (dot_S16x512x4096_S16x4096x64_S16x512x64_2_1_1_2_0_0.lhsIdx i q 1).val = (i 1).val := by
  unfold DotDims.lhsIdx
  rw [dif_neg (show ¬(1 : Fin S16x512x4096.rank) ∈ dot_S16x512x4096_S16x4096x64_S16x512x64_2_1_1_2_0_0.lhsBatch by decide), dif_pos (show (1 : Fin S16x512x4096.rank) ∈ dot_S16x512x4096_S16x4096x64_S16x512x64_2_1_1_2_0_0.lhsNonContracting by decide)]
  rfl
theorem lhs_project_2 (i : S16x512x64.Idx) (q : dot_S16x512x4096_S16x4096x64_S16x512x64_2_1_1_2_0_0.contr.Idx) :
    (dot_S16x512x4096_S16x4096x64_S16x512x64_2_1_1_2_0_0.lhsIdx i q 2).val = (q ⟨0, by decide⟩).val :=
  dot_S16x512x4096_S16x4096x64_S16x512x64_2_1_1_2_0_0.lhsIdx_val_of_single rfl i q
theorem rhs_project_0 (i : S16x512x64.Idx) (q : dot_S16x512x4096_S16x4096x64_S16x512x64_2_1_1_2_0_0.contr.Idx) :
    (dot_S16x512x4096_S16x4096x64_S16x512x64_2_1_1_2_0_0.rhsIdx i q 0).val = (i 0).val := by
  unfold DotDims.rhsIdx
  rw [dif_pos (show (0 : Fin S16x4096x64.rank) ∈ dot_S16x512x4096_S16x4096x64_S16x512x64_2_1_1_2_0_0.rhsBatch by decide)]
  rfl
theorem rhs_project_1 (i : S16x512x64.Idx) (q : dot_S16x512x4096_S16x4096x64_S16x512x64_2_1_1_2_0_0.contr.Idx) :
    (dot_S16x512x4096_S16x4096x64_S16x512x64_2_1_1_2_0_0.rhsIdx i q 1).val = (q ⟨0, by decide⟩).val :=
  dot_S16x512x4096_S16x4096x64_S16x512x64_2_1_1_2_0_0.rhsIdx_val_of_single rfl i q
theorem rhs_project_2 (i : S16x512x64.Idx) (q : dot_S16x512x4096_S16x4096x64_S16x512x64_2_1_1_2_0_0.contr.Idx) :
    (dot_S16x512x4096_S16x4096x64_S16x512x64_2_1_1_2_0_0.rhsIdx i q 2).val = (i 2).val := by
  unfold DotDims.rhsIdx
  rw [dif_neg (show ¬(2 : Fin S16x4096x64.rank) ∈ dot_S16x512x4096_S16x4096x64_S16x512x64_2_1_1_2_0_0.rhsBatch by decide), dif_pos (show (2 : Fin S16x4096x64.rank) ∈ dot_S16x512x4096_S16x4096x64_S16x512x64_2_1_1_2_0_0.rhsNonContracting by decide)]
  rfl

theorem dot_project_apply (y0 : Arr S16x512x4096) (y1 : Arr S16x4096x64) (t : Fin 16) (c : Fin 512) (j : Fin 64) :
    Host.dotGeneral dot_S16x512x4096_S16x4096x64_S16x512x64_2_1_1_2_0_0 none y0 y1 (ix3 t c j) = ∑ k : Fin 4096, y0 (ix3 t c k) * y1 (ix3 t k j) := by
  simp only [Host.dotGeneral]
  rw [Ideal.dotGeneral_apply, ← Equiv.sum_comp (contrEquiv1 dot_S16x512x4096_S16x4096x64_S16x512x64_2_1_1_2_0_0 4096 rfl rfl).symm]
  refine Finset.sum_congr rfl fun k _ => ?_
  have hk := contrEquiv1_symm_val dot_S16x512x4096_S16x4096x64_S16x512x64_2_1_1_2_0_0 4096 rfl rfl k
  have el : dot_S16x512x4096_S16x4096x64_S16x512x64_2_1_1_2_0_0.lhsIdx (ix3 t c j) ((contrEquiv1 dot_S16x512x4096_S16x4096x64_S16x512x64_2_1_1_2_0_0 4096 rfl rfl).symm k) = ix3 t c k :=
    funext fun a => Fin.ext (by
      match a with
      | ⟨0, _⟩ => exact lhs_project_0 _ _
      | ⟨1, _⟩ => exact lhs_project_1 _ _
      | ⟨2, _⟩ => exact (lhs_project_2 _ _).trans hk)
  have er : dot_S16x512x4096_S16x4096x64_S16x512x64_2_1_1_2_0_0.rhsIdx (ix3 t c j) ((contrEquiv1 dot_S16x512x4096_S16x4096x64_S16x512x64_2_1_1_2_0_0 4096 rfl rfl).symm k) = ix3 t k j :=
    funext fun a => Fin.ext (by
      match a with
      | ⟨0, _⟩ => exact rhs_project_0 _ _
      | ⟨1, _⟩ => exact (rhs_project_1 _ _).trans hk
      | ⟨2, _⟩ => exact rhs_project_2 _ _)
  rw [el, er]

theorem lhs_recon_0 (i : S16x512x4096.Idx) (q : dot_S16x512x64_S16x4096x64_S16x512x4096_2_2_1_1_0_0.contr.Idx) :
    (dot_S16x512x64_S16x4096x64_S16x512x4096_2_2_1_1_0_0.lhsIdx i q 0).val = (i 0).val := by
  unfold DotDims.lhsIdx
  rw [dif_pos (show (0 : Fin S16x512x64.rank) ∈ dot_S16x512x64_S16x4096x64_S16x512x4096_2_2_1_1_0_0.lhsBatch by decide)]
  rfl
theorem lhs_recon_1 (i : S16x512x4096.Idx) (q : dot_S16x512x64_S16x4096x64_S16x512x4096_2_2_1_1_0_0.contr.Idx) :
    (dot_S16x512x64_S16x4096x64_S16x512x4096_2_2_1_1_0_0.lhsIdx i q 1).val = (i 1).val := by
  unfold DotDims.lhsIdx
  rw [dif_neg (show ¬(1 : Fin S16x512x64.rank) ∈ dot_S16x512x64_S16x4096x64_S16x512x4096_2_2_1_1_0_0.lhsBatch by decide), dif_pos (show (1 : Fin S16x512x64.rank) ∈ dot_S16x512x64_S16x4096x64_S16x512x4096_2_2_1_1_0_0.lhsNonContracting by decide)]
  rfl
theorem lhs_recon_2 (i : S16x512x4096.Idx) (q : dot_S16x512x64_S16x4096x64_S16x512x4096_2_2_1_1_0_0.contr.Idx) :
    (dot_S16x512x64_S16x4096x64_S16x512x4096_2_2_1_1_0_0.lhsIdx i q 2).val = (q ⟨0, by decide⟩).val :=
  dot_S16x512x64_S16x4096x64_S16x512x4096_2_2_1_1_0_0.lhsIdx_val_of_single rfl i q
theorem rhs_recon_0 (i : S16x512x4096.Idx) (q : dot_S16x512x64_S16x4096x64_S16x512x4096_2_2_1_1_0_0.contr.Idx) :
    (dot_S16x512x64_S16x4096x64_S16x512x4096_2_2_1_1_0_0.rhsIdx i q 0).val = (i 0).val := by
  unfold DotDims.rhsIdx
  rw [dif_pos (show (0 : Fin S16x4096x64.rank) ∈ dot_S16x512x64_S16x4096x64_S16x512x4096_2_2_1_1_0_0.rhsBatch by decide)]
  rfl
theorem rhs_recon_1 (i : S16x512x4096.Idx) (q : dot_S16x512x64_S16x4096x64_S16x512x4096_2_2_1_1_0_0.contr.Idx) :
    (dot_S16x512x64_S16x4096x64_S16x512x4096_2_2_1_1_0_0.rhsIdx i q 1).val = (i 2).val := by
  unfold DotDims.rhsIdx
  rw [dif_neg (show ¬(1 : Fin S16x4096x64.rank) ∈ dot_S16x512x64_S16x4096x64_S16x512x4096_2_2_1_1_0_0.rhsBatch by decide), dif_pos (show (1 : Fin S16x4096x64.rank) ∈ dot_S16x512x64_S16x4096x64_S16x512x4096_2_2_1_1_0_0.rhsNonContracting by decide)]
  rfl
theorem rhs_recon_2 (i : S16x512x4096.Idx) (q : dot_S16x512x64_S16x4096x64_S16x512x4096_2_2_1_1_0_0.contr.Idx) :
    (dot_S16x512x64_S16x4096x64_S16x512x4096_2_2_1_1_0_0.rhsIdx i q 2).val = (q ⟨0, by decide⟩).val :=
  dot_S16x512x64_S16x4096x64_S16x512x4096_2_2_1_1_0_0.rhsIdx_val_of_single rfl i q

theorem dot_recon_apply (y0 : Arr S16x512x64) (y1 : Arr S16x4096x64) (t : Fin 16) (c : Fin 512) (n : Fin 4096) :
    Host.dotGeneral dot_S16x512x64_S16x4096x64_S16x512x4096_2_2_1_1_0_0 none y0 y1 (ix3 t c n) = ∑ k : Fin 64, y0 (ix3 t c k) * y1 (ix3 t n k) := by
  simp only [Host.dotGeneral]
  rw [Ideal.dotGeneral_apply, ← Equiv.sum_comp (contrEquiv1 dot_S16x512x64_S16x4096x64_S16x512x4096_2_2_1_1_0_0 64 rfl rfl).symm]
  refine Finset.sum_congr rfl fun k _ => ?_
  have hk := contrEquiv1_symm_val dot_S16x512x64_S16x4096x64_S16x512x4096_2_2_1_1_0_0 64 rfl rfl k
  have el : dot_S16x512x64_S16x4096x64_S16x512x4096_2_2_1_1_0_0.lhsIdx (ix3 t c n) ((contrEquiv1 dot_S16x512x64_S16x4096x64_S16x512x4096_2_2_1_1_0_0 64 rfl rfl).symm k) = ix3 t c k :=
    funext fun a => Fin.ext (by
      match a with
      | ⟨0, _⟩ => exact lhs_recon_0 _ _
      | ⟨1, _⟩ => exact lhs_recon_1 _ _
      | ⟨2, _⟩ => exact (lhs_recon_2 _ _).trans hk)
  have er : dot_S16x512x64_S16x4096x64_S16x512x4096_2_2_1_1_0_0.rhsIdx (ix3 t c n) ((contrEquiv1 dot_S16x512x64_S16x4096x64_S16x512x4096_2_2_1_1_0_0 64 rfl rfl).symm k) = ix3 t n k :=
    funext fun a => Fin.ext (by
      match a with
      | ⟨0, _⟩ => exact rhs_recon_0 _ _
      | ⟨1, _⟩ => exact rhs_recon_1 _ _
      | ⟨2, _⟩ => exact (rhs_recon_2 _ _).trans hk)
  rw [el, er]

/-! ## Sums, the maximum and the repetitions at an entry -/

theorem sumK_apply (y : Arr S16x4096x64) (init : Arr S_) (t : Fin 16) (n : Fin 4096) :
    Host.reduceAdd y init reducesTo_S16x4096x64_S16x4096_d2 h_S_ (ix2 t n) = init (Shape.Idx.first h_S_) + ∑ k : Fin 64, y (ix3 t n k) := by
  simp only [Host.reduceAdd, Ideal.hostReduceAdd_def]
  rw [Ideal.hostReduceAdd_single reducesTo_S16x4096x64_S16x4096_d2 (by decide)]
  refine congrArg (_ + ·) (Finset.sum_congr rfl fun k _ => ?_)
  exact congrArg y (funext fun a => Fin.ext (by match a with | ⟨0, _⟩ => rfl | ⟨1, _⟩ => rfl | ⟨2, _⟩ => rfl))

theorem sumN_apply (y : Arr S16x4096x64) (init : Arr S_) (t : Fin 16) (j : Fin 64) :
    Host.reduceAdd y init reducesTo_S16x4096x64_S16x64_d1 h_S_ (ix2 t j) = init (Shape.Idx.first h_S_) + ∑ k : Fin 4096, y (ix3 t k j) := by
  simp only [Host.reduceAdd, Ideal.hostReduceAdd_def]
  rw [Ideal.hostReduceAdd_single reducesTo_S16x4096x64_S16x64_d1 (by decide)]
  refine congrArg (_ + ·) (Finset.sum_congr rfl fun k _ => ?_)
  exact congrArg y (funext fun a => Fin.ext (by match a with | ⟨0, _⟩ => rfl | ⟨1, _⟩ => rfl | ⟨2, _⟩ => rfl))

theorem sumC_apply (y : Arr S16x512x64) (init : Arr S_) (t : Fin 16) (j : Fin 64) :
    Host.reduceAdd y init reducesTo_S16x512x64_S16x64_d1 h_S_ (ix2 t j) = init (Shape.Idx.first h_S_) + ∑ k : Fin 512, y (ix3 t k j) := by
  simp only [Host.reduceAdd, Ideal.hostReduceAdd_def]
  rw [Ideal.hostReduceAdd_single reducesTo_S16x512x64_S16x64_d1 (by decide)]
  refine congrArg (_ + ·) (Finset.sum_congr rfl fun k _ => ?_)
  exact congrArg y (funext fun a => Fin.ext (by match a with | ⟨0, _⟩ => rfl | ⟨1, _⟩ => rfl | ⟨2, _⟩ => rfl))

theorem sumC1_apply (y : Arr S1x512x64) (init : Arr S_) (u : Fin 1) (j : Fin 64) :
    Host.reduceAdd y init reducesTo_S1x512x64_S1x64_d1 h_S_ (ix2 u j) = init (Shape.Idx.first h_S_) + ∑ k : Fin 512, y (ix3 u k j) := by
  simp only [Host.reduceAdd, Ideal.hostReduceAdd_def]
  rw [Ideal.hostReduceAdd_single reducesTo_S1x512x64_S1x64_d1 (by decide)]
  refine congrArg (_ + ·) (Finset.sum_congr rfl fun k _ => ?_)
  exact congrArg y (funext fun a => Fin.ext (by match a with | ⟨0, _⟩ => rfl | ⟨1, _⟩ => rfl | ⟨2, _⟩ => rfl))

/-- The host's maximum over the last axis, at (t, n): the fold of max from the initial value over the 64 entries. -/
theorem maxLast_apply (x : Arr S16x4096x64) (init : Arr S_) (t : Fin 16) (n : Fin 4096) :
    Host.reduce FloatOps.maximumf x init reducesTo_S16x4096x64_S16x4096_d2 h_S_ (ix2 t n)
      = (Finset.univ : Finset (Fin 64)).fold max (init (Shape.Idx.first h_S_)) (fun k => x (ix3 t n k)) := by
  have hR : S16x4096x64.Reduces [(2 : Fin 3)] S16x4096 := by decide
  refine (Host.reduce_eq_fold_single (FloatOps.maximumf (F := Ideal) (φ := .f32)) x init reducesTo_S16x4096x64_S16x4096_d2 hR h_S_
    (ix2 t n)).trans ?_
  have e : (x ∘ hR.lift (ix2 t n)) = fun k => x (ix3 t n k) :=
    funext fun k => congrArg x (funext fun a => Fin.ext (by match a with | ⟨0, _⟩ => rfl | ⟨1, _⟩ => rfl | ⟨2, _⟩ => rfl))
  rw [e]
  rfl

theorem spreadK_apply (v : Arr S16x4096) (t : Fin 16) (n : Fin 4096) (j : Fin 64) : spreadK v (ix3 t n j) = v (ix2 t n) := by
  unfold spreadK
  refine (broadcastInDim_apply _ bcast_S16x4096x1_S16x4096x64_0_1_2 _ (ix3 t n j) (ix3 t n (0 : Fin 1)) (fun a => match a with
    | ⟨0, _⟩ => by show t.val = if (16 : Nat) = 1 then 0 else t.val; rw [if_neg (by decide)]
    | ⟨1, _⟩ => by show n.val = if (4096 : Nat) = 1 then 0 else n.val; rw [if_neg (by decide)]
    | ⟨2, _⟩ => by show 0 = if (1 : Nat) = 1 then 0 else j.val; rw [if_pos rfl])).trans ?_
  exact broadcastInDim_apply _ bcast_S16x4096_S16x4096x1_0_1 v (ix3 t n (0 : Fin 1)) (ix2 t n) (fun a => match a with
    | ⟨0, _⟩ => by show t.val = if (16 : Nat) = 1 then 0 else t.val; rw [if_neg (by decide)]
    | ⟨1, _⟩ => by show n.val = if (4096 : Nat) = 1 then 0 else n.val; rw [if_neg (by decide)])

theorem spreadN_apply (v : Arr S16x1x64) (t : Fin 16) (n : Fin 4096) (j : Fin 64) :
    spreadN v (ix3 t n j) = v (ix3 t (0 : Fin 1) j) := by
  unfold spreadN
  exact broadcastInDim_apply _ bcast_S16x1x64_S16x4096x64_0_1_2 v (ix3 t n j) (ix3 t (0 : Fin 1) j) (fun a => match a with
    | ⟨0, _⟩ => by show t.val = if (16 : Nat) = 1 then 0 else t.val; rw [if_neg (by decide)]
    | ⟨1, _⟩ => by show 0 = if (1 : Nat) = 1 then 0 else n.val; rw [if_pos rfl]
    | ⟨2, _⟩ => by show j.val = if (64 : Nat) = 1 then 0 else j.val; rw [if_neg (by decide)])

theorem spreadC_apply (v : Arr S16x1x64) (t : Fin 16) (c : Fin 512) (j : Fin 64) :
    broadcastInDim S16x512x64 ![0, 1, 2] bcast_S16x1x64_S16x512x64_0_1_2 v (ix3 t c j) = v (ix3 t (0 : Fin 1) j) :=
  broadcastInDim_apply _ bcast_S16x1x64_S16x512x64_0_1_2 v (ix3 t c j) (ix3 t (0 : Fin 1) j) (fun a => match a with
    | ⟨0, _⟩ => by show t.val = if (16 : Nat) = 1 then 0 else t.val; rw [if_neg (by decide)]
    | ⟨1, _⟩ => by show 0 = if (1 : Nat) = 1 then 0 else c.val; rw [if_pos rfl]
    | ⟨2, _⟩ => by show j.val = if (64 : Nat) = 1 then 0 else j.val; rw [if_neg (by decide)])

theorem keepMid_apply (v : Arr S16x64) (t : Fin 16) (u : Fin 1) (j : Fin 64) :
    broadcastInDim S16x1x64 ![0, 2] bcast_S16x64_S16x1x64_0_2 v (ix3 t u j) = v (ix2 t j) :=
  broadcastInDim_apply _ bcast_S16x64_S16x1x64_0_2 v (ix3 t u j) (ix2 t j) (fun a => match a with
    | ⟨0, _⟩ => by show t.val = if (16 : Nat) = 1 then 0 else t.val; rw [if_neg (by decide)]
    | ⟨1, _⟩ => by show j.val = if (64 : Nat) = 1 then 0 else j.val; rw [if_neg (by decide)])

theorem epsRow_apply (i : S16x1x64.Idx) : epsRow i = EMSpec.eps := by
  unfold epsRow
  exact broadcastInDim_apply _ bcast_S_S16x1x64 _ i (fun a => a.elim0) (fun a => a.elim0)

end Cert.ReferenceIdeal.Block

end
-- ==== Proof.LibAfterSplit.lean ====
/-
  A line of host operations run from given buffer contents is a fold over the line; the fold over a line is the fold
  over any tail of it started from the fold over the matching head.
-/
import Idealize.ShloMosaic.Lib.StableHlo.Run

noncomputable section

namespace Cert.AfterSplit

open Idealize.ShloMosaic Idealize.ShloMosaic.StableHlo

variable {τ : Topo} {sig : RefSig} {Val : EltTy → Type}

theorem after_append (l₁ l₂ : List (HloOp τ sig Val)) (V : Valuation τ sig Val) :
    after (l₁ ++ l₂) V = after l₂ (after l₁ V) := by
  induction l₁ generalizing V with
  | nil => rfl
  | cons op l ih => exact ih _

theorem after_take_drop (l : List (HloOp τ sig Val)) (k : ℕ) (V : Valuation τ sig Val) :
    after l V = after (l.drop k) (after (l.take k) V) := by
  rw [← after_append, List.take_append_drop]

end Cert.AfterSplit

end
-- ==== Proof.RefRun.lean ====
/-
  The reference program's run: its @main is a straight line of 116 host operations (the four calls of the outlined
  Euclidean-norm function stand as their five operations each, over the call's own buffers).  Every weakly fair
  execution terminates with each buffer at the fold of the operations over the launch contents; the line is cut into
  the preparation of the two operands, the three rounds and the closing product, and what each cut leaves in the
  buffers later cuts read is named by the pieces of RefBlock.lean — so the result is the batched computation
  `Block.resultH` of the arguments, with the two position axes merged before and split after.
-/
import proofs.«153750_j4166118277546_2_alg».proof.Proof.Gen.ReferenceIdeal
import proofs.«153750_j4166118277546_2_alg».proof.Proof.RefOps
import proofs.«153750_j4166118277546_2_alg».proof.Proof.LibAfterSplit
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo
open Cert.ReferenceIdeal.Block

variable {F : FTy → Type} [FloatOps F]

/-- The merge of the position axes and the normalisation of the basis, repeated for the 16 blocks. -/
abbrev prefixOps : List (HloOp τ sig (Elt F)) :=
  [ reshape main_arg0 main_v0 rfl shapeCasts_S16x512x64x64_S16x512x4096,
    TRef.binary (TRef.of (T := ⟨S1x512x64, .f32⟩) main_arg1) (TRef.of (T := ⟨S1x512x64, .f32⟩) main_arg1) (TRef.of (T := ⟨S1x512x64, .f32⟩) main_call0_v0) mulf,
    TRef.nullary (TRef.of (T := ⟨S_, .f32⟩) main_call0_cst) (constant S_ .f32 0x00000000#32),
    TRef.binary (TRef.of (T := ⟨S1x512x64, .f32⟩) main_call0_v0) (TRef.of (T := ⟨S_, .f32⟩) main_call0_cst) (TRef.of (T := ⟨S1x64, .f32⟩) main_call0_v1) (fun x v => Host.reduceAdd x v reducesTo_S1x512x64_S1x64_d1 h_S_),
    TRef.unary (TRef.of (T := ⟨S1x64, .f32⟩) main_call0_v1) (TRef.of (T := ⟨S1x1x64, .f32⟩) main_call0_v2) (broadcastInDim S1x1x64 ![0, 2] bcast_S1x64_S1x1x64_0_2),
    TRef.unary (TRef.of (T := ⟨S1x1x64, .f32⟩) main_call0_v2) (TRef.of (T := ⟨S1x1x64, .f32⟩) main_v1) Host.sqrt,
    nullary main_cst (constant S_ .f32 0x358637BD#32),
    unary main_cst main_v2 (broadcastInDim S1x1x64 ![] bcast_S_S1x1x64 : (⟨S_, .f32⟩ : BufTy).Contents (Elt F) → (⟨S1x1x64, .f32⟩ : BufTy).Contents (Elt F)),
    binary main_v2 main_v1 main_v3 (addf : (⟨S1x1x64, .f32⟩ : BufTy).Contents (Elt F) → (⟨S1x1x64, .f32⟩ : BufTy).Contents (Elt F) → (⟨S1x1x64, .f32⟩ : BufTy).Contents (Elt F)),
    unary main_v3 main_v4 (broadcastInDim S1x512x64 ![0, 1, 2] bcast_S1x1x64_S1x512x64_0_1_2 : (⟨S1x1x64, .f32⟩ : BufTy).Contents (Elt F) → (⟨S1x512x64, .f32⟩ : BufTy).Contents (Elt F)),
    binary main_arg1 main_v4 main_v5 (Host.divf : (⟨S1x512x64, .f32⟩ : BufTy).Contents (Elt F) → (⟨S1x512x64, .f32⟩ : BufTy).Contents (Elt F) → (⟨S1x512x64, .f32⟩ : BufTy).Contents (Elt F)),
    unary main_v5 main_v6 (broadcastInDim S16x512x64 ![0, 1, 2] bcast_S1x512x64_S16x512x64_0_1_2 : (⟨S1x512x64, .f32⟩ : BufTy).Contents (Elt F) → (⟨S16x512x64, .f32⟩ : BufTy).Contents (Elt F)) ]

/-- The first round. -/
abbrev round1 : List (HloOp τ sig (Elt F)) :=
  [ binary main_v0 main_v6 main_v7 ((fun l r => Host.dotGeneral dot_S16x512x4096_S16x512x64_S16x4096x64_1_1_2_2_0_0 none l r) : (⟨S16x512x4096, .f32⟩ : BufTy).Contents (Elt F) → (⟨S16x512x64, .f32⟩ : BufTy).Contents (Elt F) → (⟨S16x4096x64, .f32⟩ : BufTy).Contents (Elt F)),
    nullary main_cst_0 (constant S_ .f32 0xFF800000#32),
    binary main_v7 main_cst_0 main_v8 ((fun x v => Host.reduce FloatOps.maximumf x v reducesTo_S16x4096x64_S16x4096_d2 h_S_) : (⟨S16x4096x64, .f32⟩ : BufTy).Contents (Elt F) → (⟨S_, .f32⟩ : BufTy).Contents (Elt F) → (⟨S16x4096, .f32⟩ : BufTy).Contents (Elt F)),
    nullary main_cst_1 (constant S_ .f32 0xFF800000#32),
    unary main_cst_1 main_v9 (broadcastInDim S16x4096 ![] bcast_S_S16x4096 : (⟨S_, .f32⟩ : BufTy).Contents (Elt F) → (⟨S16x4096, .f32⟩ : BufTy).Contents (Elt F)),
    binary main_v9 main_v8 main_v10 (maximumf : (⟨S16x4096, .f32⟩ : BufTy).Contents (Elt F) → (⟨S16x4096, .f32⟩ : BufTy).Contents (Elt F) → (⟨S16x4096, .f32⟩ : BufTy).Contents (Elt F)),
    unary main_v10 main_v11 (broadcastInDim S16x4096x1 ![0, 1] bcast_S16x4096_S16x4096x1_0_1 : (⟨S16x4096, .f32⟩ : BufTy).Contents (Elt F) → (⟨S16x4096x1, .f32⟩ : BufTy).Contents (Elt F)),
    unary main_v11 main_v12 (broadcastInDim S16x4096x64 ![0, 1, 2] bcast_S16x4096x1_S16x4096x64_0_1_2 : (⟨S16x4096x1, .f32⟩ : BufTy).Contents (Elt F) → (⟨S16x4096x64, .f32⟩ : BufTy).Contents (Elt F)),
    binary main_v7 main_v12 main_v13 (subf : (⟨S16x4096x64, .f32⟩ : BufTy).Contents (Elt F) → (⟨S16x4096x64, .f32⟩ : BufTy).Contents (Elt F) → (⟨S16x4096x64, .f32⟩ : BufTy).Contents (Elt F)),
    unary main_v13 main_v14 (Host.exp : (⟨S16x4096x64, .f32⟩ : BufTy).Contents (Elt F) → (⟨S16x4096x64, .f32⟩ : BufTy).Contents (Elt F)),
    nullary main_cst_2 (constant S_ .f32 0x00000000#32),
    binary main_v14 main_cst_2 main_v15 ((fun x v => Host.reduceAdd x v reducesTo_S16x4096x64_S16x4096_d2 h_S_) : (⟨S16x4096x64, .f32⟩ : BufTy).Contents (Elt F) → (⟨S_, .f32⟩ : BufTy).Contents (Elt F) → (⟨S16x4096, .f32⟩ : BufTy).Contents (Elt F)),
    unary main_v15 main_v16 (broadcastInDim S16x4096x1 ![0, 1] bcast_S16x4096_S16x4096x1_0_1 : (⟨S16x4096, .f32⟩ : BufTy).Contents (Elt F) → (⟨S16x4096x1, .f32⟩ : BufTy).Contents (Elt F)),
    unary main_v16 main_v17 (broadcastInDim S16x4096x64 ![0, 1, 2] bcast_S16x4096x1_S16x4096x64_0_1_2 : (⟨S16x4096x1, .f32⟩ : BufTy).Contents (Elt F) → (⟨S16x4096x64, .f32⟩ : BufTy).Contents (Elt F)),
    binary main_v14 main_v17 main_v18 (Host.divf : (⟨S16x4096x64, .f32⟩ : BufTy).Contents (Elt F) → (⟨S16x4096x64, .f32⟩ : BufTy).Contents (Elt F) → (⟨S16x4096x64, .f32⟩ : BufTy).Contents (Elt F)),
    nullary main_cst_3 (constant S_ .f32 0x00000000#32),
    binary main_v18 main_cst_3 main_v19 ((fun x v => Host.reduceAdd x v reducesTo_S16x4096x64_S16x64_d1 h_S_) : (⟨S16x4096x64, .f32⟩ : BufTy).Contents (Elt F) → (⟨S_, .f32⟩ : BufTy).Contents (Elt F) → (⟨S16x64, .f32⟩ : BufTy).Contents (Elt F)),
    unary main_v19 main_v20 (broadcastInDim S16x1x64 ![0, 2] bcast_S16x64_S16x1x64_0_2 : (⟨S16x64, .f32⟩ : BufTy).Contents (Elt F) → (⟨S16x1x64, .f32⟩ : BufTy).Contents (Elt F)),
    nullary main_cst_4 (constant S_ .f32 0x358637BD#32),
    unary main_cst_4 main_v21 (broadcastInDim S16x1x64 ![] bcast_S_S16x1x64 : (⟨S_, .f32⟩ : BufTy).Contents (Elt F) → (⟨S16x1x64, .f32⟩ : BufTy).Contents (Elt F)),
    binary main_v21 main_v20 main_v22 (addf : (⟨S16x1x64, .f32⟩ : BufTy).Contents (Elt F) → (⟨S16x1x64, .f32⟩ : BufTy).Contents (Elt F) → (⟨S16x1x64, .f32⟩ : BufTy).Contents (Elt F)),
    unary main_v22 main_v23 (broadcastInDim S16x4096x64 ![0, 1, 2] bcast_S16x1x64_S16x4096x64_0_1_2 : (⟨S16x1x64, .f32⟩ : BufTy).Contents (Elt F) → (⟨S16x4096x64, .f32⟩ : BufTy).Contents (Elt F)),
    binary main_v18 main_v23 main_v24 (Host.divf : (⟨S16x4096x64, .f32⟩ : BufTy).Contents (Elt F) → (⟨S16x4096x64, .f32⟩ : BufTy).Contents (Elt F) → (⟨S16x4096x64, .f32⟩ : BufTy).Contents (Elt F)),
    binary main_v0 main_v24 main_v25 ((fun l r => Host.dotGeneral dot_S16x512x4096_S16x4096x64_S16x512x64_2_1_1_2_0_0 none l r) : (⟨S16x512x4096, .f32⟩ : BufTy).Contents (Elt F) → (⟨S16x4096x64, .f32⟩ : BufTy).Contents (Elt F) → (⟨S16x512x64, .f32⟩ : BufTy).Contents (Elt F)),
    TRef.binary (TRef.of (T := ⟨S16x512x64, .f32⟩) main_v25) (TRef.of (T := ⟨S16x512x64, .f32⟩) main_v25) (TRef.of (T := ⟨S16x512x64, .f32⟩) main_call1_v0) mulf,
    TRef.nullary (TRef.of (T := ⟨S_, .f32⟩) main_call1_cst) (constant S_ .f32 0x00000000#32),
    TRef.binary (TRef.of (T := ⟨S16x512x64, .f32⟩) main_call1_v0) (TRef.of (T := ⟨S_, .f32⟩) main_call1_cst) (TRef.of (T := ⟨S16x64, .f32⟩) main_call1_v1) (fun x v => Host.reduceAdd x v reducesTo_S16x512x64_S16x64_d1 h_S_),
    TRef.unary (TRef.of (T := ⟨S16x64, .f32⟩) main_call1_v1) (TRef.of (T := ⟨S16x1x64, .f32⟩) main_call1_v2) (broadcastInDim S16x1x64 ![0, 2] bcast_S16x64_S16x1x64_0_2),
    TRef.unary (TRef.of (T := ⟨S16x1x64, .f32⟩) main_call1_v2) (TRef.of (T := ⟨S16x1x64, .f32⟩) main_v26) Host.sqrt,
    nullary main_cst_5 (constant S_ .f32 0x358637BD#32),
    unary main_cst_5 main_v27 (broadcastInDim S16x1x64 ![] bcast_S_S16x1x64 : (⟨S_, .f32⟩ : BufTy).Contents (Elt F) → (⟨S16x1x64, .f32⟩ : BufTy).Contents (Elt F)),
    binary main_v27 main_v26 main_v28 (addf : (⟨S16x1x64, .f32⟩ : BufTy).Contents (Elt F) → (⟨S16x1x64, .f32⟩ : BufTy).Contents (Elt F) → (⟨S16x1x64, .f32⟩ : BufTy).Contents (Elt F)),
    unary main_v28 main_v29 (broadcastInDim S16x512x64 ![0, 1, 2] bcast_S16x1x64_S16x512x64_0_1_2 : (⟨S16x1x64, .f32⟩ : BufTy).Contents (Elt F) → (⟨S16x512x64, .f32⟩ : BufTy).Contents (Elt F)),
    binary main_v25 main_v29 main_v30 (Host.divf : (⟨S16x512x64, .f32⟩ : BufTy).Contents (Elt F) → (⟨S16x512x64, .f32⟩ : BufTy).Contents (Elt F) → (⟨S16x512x64, .f32⟩ : BufTy).Contents (Elt F)) ]

/-- The second round. -/
abbrev round2 : List (HloOp τ sig (Elt F)) :=
  [ binary main_v0 main_v30 main_v31 ((fun l r => Host.dotGeneral dot_S16x512x4096_S16x512x64_S16x4096x64_1_1_2_2_0_0 none l r) : (⟨S16x512x4096, .f32⟩ : BufTy).Contents (Elt F) → (⟨S16x512x64, .f32⟩ : BufTy).Contents (Elt F) → (⟨S16x4096x64, .f32⟩ : BufTy).Contents (Elt F)),
    nullary main_cst_6 (constant S_ .f32 0xFF800000#32),
    binary main_v31 main_cst_6 main_v32 ((fun x v => Host.reduce FloatOps.maximumf x v reducesTo_S16x4096x64_S16x4096_d2 h_S_) : (⟨S16x4096x64, .f32⟩ : BufTy).Contents (Elt F) → (⟨S_, .f32⟩ : BufTy).Contents (Elt F) → (⟨S16x4096, .f32⟩ : BufTy).Contents (Elt F)),
    nullary main_cst_7 (constant S_ .f32 0xFF800000#32),
    unary main_cst_7 main_v33 (broadcastInDim S16x4096 ![] bcast_S_S16x4096 : (⟨S_, .f32⟩ : BufTy).Contents (Elt F) → (⟨S16x4096, .f32⟩ : BufTy).Contents (Elt F)),
    binary main_v33 main_v32 main_v34 (maximumf : (⟨S16x4096, .f32⟩ : BufTy).Contents (Elt F) → (⟨S16x4096, .f32⟩ : BufTy).Contents (Elt F) → (⟨S16x4096, .f32⟩ : BufTy).Contents (Elt F)),
    unary main_v34 main_v35 (broadcastInDim S16x4096x1 ![0, 1] bcast_S16x4096_S16x4096x1_0_1 : (⟨S16x4096, .f32⟩ : BufTy).Contents (Elt F) → (⟨S16x4096x1, .f32⟩ : BufTy).Contents (Elt F)),
    unary main_v35 main_v36 (broadcastInDim S16x4096x64 ![0, 1, 2] bcast_S16x4096x1_S16x4096x64_0_1_2 : (⟨S16x4096x1, .f32⟩ : BufTy).Contents (Elt F) → (⟨S16x4096x64, .f32⟩ : BufTy).Contents (Elt F)),
    binary main_v31 main_v36 main_v37 (subf : (⟨S16x4096x64, .f32⟩ : BufTy).Contents (Elt F) → (⟨S16x4096x64, .f32⟩ : BufTy).Contents (Elt F) → (⟨S16x4096x64, .f32⟩ : BufTy).Contents (Elt F)),
    unary main_v37 main_v38 (Host.exp : (⟨S16x4096x64, .f32⟩ : BufTy).Contents (Elt F) → (⟨S16x4096x64, .f32⟩ : BufTy).Contents (Elt F)),
    nullary main_cst_8 (constant S_ .f32 0x00000000#32),
    binary main_v38 main_cst_8 main_v39 ((fun x v => Host.reduceAdd x v reducesTo_S16x4096x64_S16x4096_d2 h_S_) : (⟨S16x4096x64, .f32⟩ : BufTy).Contents (Elt F) → (⟨S_, .f32⟩ : BufTy).Contents (Elt F) → (⟨S16x4096, .f32⟩ : BufTy).Contents (Elt F)),
    unary main_v39 main_v40 (broadcastInDim S16x4096x1 ![0, 1] bcast_S16x4096_S16x4096x1_0_1 : (⟨S16x4096, .f32⟩ : BufTy).Contents (Elt F) → (⟨S16x4096x1, .f32⟩ : BufTy).Contents (Elt F)),
    unary main_v40 main_v41 (broadcastInDim S16x4096x64 ![0, 1, 2] bcast_S16x4096x1_S16x4096x64_0_1_2 : (⟨S16x4096x1, .f32⟩ : BufTy).Contents (Elt F) → (⟨S16x4096x64, .f32⟩ : BufTy).Contents (Elt F)),
    binary main_v38 main_v41 main_v42 (Host.divf : (⟨S16x4096x64, .f32⟩ : BufTy).Contents (Elt F) → (⟨S16x4096x64, .f32⟩ : BufTy).Contents (Elt F) → (⟨S16x4096x64, .f32⟩ : BufTy).Contents (Elt F)),
    nullary main_cst_9 (constant S_ .f32 0x00000000#32),
    binary main_v42 main_cst_9 main_v43 ((fun x v => Host.reduceAdd x v reducesTo_S16x4096x64_S16x64_d1 h_S_) : (⟨S16x4096x64, .f32⟩ : BufTy).Contents (Elt F) → (⟨S_, .f32⟩ : BufTy).Contents (Elt F) → (⟨S16x64, .f32⟩ : BufTy).Contents (Elt F)),
    unary main_v43 main_v44 (broadcastInDim S16x1x64 ![0, 2] bcast_S16x64_S16x1x64_0_2 : (⟨S16x64, .f32⟩ : BufTy).Contents (Elt F) → (⟨S16x1x64, .f32⟩ : BufTy).Contents (Elt F)),
    nullary main_cst_10 (constant S_ .f32 0x358637BD#32),
    unary main_cst_10 main_v45 (broadcastInDim S16x1x64 ![] bcast_S_S16x1x64 : (⟨S_, .f32⟩ : BufTy).Contents (Elt F) → (⟨S16x1x64, .f32⟩ : BufTy).Contents (Elt F)),
    binary main_v45 main_v44 main_v46 (addf : (⟨S16x1x64, .f32⟩ : BufTy).Contents (Elt F) → (⟨S16x1x64, .f32⟩ : BufTy).Contents (Elt F) → (⟨S16x1x64, .f32⟩ : BufTy).Contents (Elt F)),
    unary main_v46 main_v47 (broadcastInDim S16x4096x64 ![0, 1, 2] bcast_S16x1x64_S16x4096x64_0_1_2 : (⟨S16x1x64, .f32⟩ : BufTy).Contents (Elt F) → (⟨S16x4096x64, .f32⟩ : BufTy).Contents (Elt F)),
    binary main_v42 main_v47 main_v48 (Host.divf : (⟨S16x4096x64, .f32⟩ : BufTy).Contents (Elt F) → (⟨S16x4096x64, .f32⟩ : BufTy).Contents (Elt F) → (⟨S16x4096x64, .f32⟩ : BufTy).Contents (Elt F)),
    binary main_v0 main_v48 main_v49 ((fun l r => Host.dotGeneral dot_S16x512x4096_S16x4096x64_S16x512x64_2_1_1_2_0_0 none l r) : (⟨S16x512x4096, .f32⟩ : BufTy).Contents (Elt F) → (⟨S16x4096x64, .f32⟩ : BufTy).Contents (Elt F) → (⟨S16x512x64, .f32⟩ : BufTy).Contents (Elt F)),
    TRef.binary (TRef.of (T := ⟨S16x512x64, .f32⟩) main_v49) (TRef.of (T := ⟨S16x512x64, .f32⟩) main_v49) (TRef.of (T := ⟨S16x512x64, .f32⟩) main_call2_v0) mulf,
    TRef.nullary (TRef.of (T := ⟨S_, .f32⟩) main_call2_cst) (constant S_ .f32 0x00000000#32),
    TRef.binary (TRef.of (T := ⟨S16x512x64, .f32⟩) main_call2_v0) (TRef.of (T := ⟨S_, .f32⟩) main_call2_cst) (TRef.of (T := ⟨S16x64, .f32⟩) main_call2_v1) (fun x v => Host.reduceAdd x v reducesTo_S16x512x64_S16x64_d1 h_S_),
    TRef.unary (TRef.of (T := ⟨S16x64, .f32⟩) main_call2_v1) (TRef.of (T := ⟨S16x1x64, .f32⟩) main_call2_v2) (broadcastInDim S16x1x64 ![0, 2] bcast_S16x64_S16x1x64_0_2),
    TRef.unary (TRef.of (T := ⟨S16x1x64, .f32⟩) main_call2_v2) (TRef.of (T := ⟨S16x1x64, .f32⟩) main_v50) Host.sqrt,
    nullary main_cst_11 (constant S_ .f32 0x358637BD#32),
    unary main_cst_11 main_v51 (broadcastInDim S16x1x64 ![] bcast_S_S16x1x64 : (⟨S_, .f32⟩ : BufTy).Contents (Elt F) → (⟨S16x1x64, .f32⟩ : BufTy).Contents (Elt F)),
    binary main_v51 main_v50 main_v52 (addf : (⟨S16x1x64, .f32⟩ : BufTy).Contents (Elt F) → (⟨S16x1x64, .f32⟩ : BufTy).Contents (Elt F) → (⟨S16x1x64, .f32⟩ : BufTy).Contents (Elt F)),
    unary main_v52 main_v53 (broadcastInDim S16x512x64 ![0, 1, 2] bcast_S16x1x64_S16x512x64_0_1_2 : (⟨S16x1x64, .f32⟩ : BufTy).Contents (Elt F) → (⟨S16x512x64, .f32⟩ : BufTy).Contents (Elt F)),
    binary main_v49 main_v53 main_v54 (Host.divf : (⟨S16x512x64, .f32⟩ : BufTy).Contents (Elt F) → (⟨S16x512x64, .f32⟩ : BufTy).Contents (Elt F) → (⟨S16x512x64, .f32⟩ : BufTy).Contents (Elt F)) ]

/-- The third round. -/
abbrev round3 : List (HloOp τ sig (Elt F)) :=
  [ binary main_v0 main_v54 main_v55 ((fun l r => Host.dotGeneral dot_S16x512x4096_S16x512x64_S16x4096x64_1_1_2_2_0_0 none l r) : (⟨S16x512x4096, .f32⟩ : BufTy).Contents (Elt F) → (⟨S16x512x64, .f32⟩ : BufTy).Contents (Elt F) → (⟨S16x4096x64, .f32⟩ : BufTy).Contents (Elt F)),
    nullary main_cst_12 (constant S_ .f32 0xFF800000#32),
    binary main_v55 main_cst_12 main_v56 ((fun x v => Host.reduce FloatOps.maximumf x v reducesTo_S16x4096x64_S16x4096_d2 h_S_) : (⟨S16x4096x64, .f32⟩ : BufTy).Contents (Elt F) → (⟨S_, .f32⟩ : BufTy).Contents (Elt F) → (⟨S16x4096, .f32⟩ : BufTy).Contents (Elt F)),
    nullary main_cst_13 (constant S_ .f32 0xFF800000#32),
    unary main_cst_13 main_v57 (broadcastInDim S16x4096 ![] bcast_S_S16x4096 : (⟨S_, .f32⟩ : BufTy).Contents (Elt F) → (⟨S16x4096, .f32⟩ : BufTy).Contents (Elt F)),
    binary main_v57 main_v56 main_v58 (maximumf : (⟨S16x4096, .f32⟩ : BufTy).Contents (Elt F) → (⟨S16x4096, .f32⟩ : BufTy).Contents (Elt F) → (⟨S16x4096, .f32⟩ : BufTy).Contents (Elt F)),
    unary main_v58 main_v59 (broadcastInDim S16x4096x1 ![0, 1] bcast_S16x4096_S16x4096x1_0_1 : (⟨S16x4096, .f32⟩ : BufTy).Contents (Elt F) → (⟨S16x4096x1, .f32⟩ : BufTy).Contents (Elt F)),
    unary main_v59 main_v60 (broadcastInDim S16x4096x64 ![0, 1, 2] bcast_S16x4096x1_S16x4096x64_0_1_2 : (⟨S16x4096x1, .f32⟩ : BufTy).Contents (Elt F) → (⟨S16x4096x64, .f32⟩ : BufTy).Contents (Elt F)),
    binary main_v55 main_v60 main_v61 (subf : (⟨S16x4096x64, .f32⟩ : BufTy).Contents (Elt F) → (⟨S16x4096x64, .f32⟩ : BufTy).Contents (Elt F) → (⟨S16x4096x64, .f32⟩ : BufTy).Contents (Elt F)),
    unary main_v61 main_v62 (Host.exp : (⟨S16x4096x64, .f32⟩ : BufTy).Contents (Elt F) → (⟨S16x4096x64, .f32⟩ : BufTy).Contents (Elt F)),
    nullary main_cst_14 (constant S_ .f32 0x00000000#32),
    binary main_v62 main_cst_14 main_v63 ((fun x v => Host.reduceAdd x v reducesTo_S16x4096x64_S16x4096_d2 h_S_) : (⟨S16x4096x64, .f32⟩ : BufTy).Contents (Elt F) → (⟨S_, .f32⟩ : BufTy).Contents (Elt F) → (⟨S16x4096, .f32⟩ : BufTy).Contents (Elt F)),
    unary main_v63 main_v64 (broadcastInDim S16x4096x1 ![0, 1] bcast_S16x4096_S16x4096x1_0_1 : (⟨S16x4096, .f32⟩ : BufTy).Contents (Elt F) → (⟨S16x4096x1, .f32⟩ : BufTy).Contents (Elt F)),
    unary main_v64 main_v65 (broadcastInDim S16x4096x64 ![0, 1, 2] bcast_S16x4096x1_S16x4096x64_0_1_2 : (⟨S16x4096x1, .f32⟩ : BufTy).Contents (Elt F) → (⟨S16x4096x64, .f32⟩ : BufTy).Contents (Elt F)),
    binary main_v62 main_v65 main_v66 (Host.divf : (⟨S16x4096x64, .f32⟩ : BufTy).Contents (Elt F) → (⟨S16x4096x64, .f32⟩ : BufTy).Contents (Elt F) → (⟨S16x4096x64, .f32⟩ : BufTy).Contents (Elt F)),
    nullary main_cst_15 (constant S_ .f32 0x00000000#32),
    binary main_v66 main_cst_15 main_v67 ((fun x v => Host.reduceAdd x v reducesTo_S16x4096x64_S16x64_d1 h_S_) : (⟨S16x4096x64, .f32⟩ : BufTy).Contents (Elt F) → (⟨S_, .f32⟩ : BufTy).Contents (Elt F) → (⟨S16x64, .f32⟩ : BufTy).Contents (Elt F)),
    unary main_v67 main_v68 (broadcastInDim S16x1x64 ![0, 2] bcast_S16x64_S16x1x64_0_2 : (⟨S16x64, .f32⟩ : BufTy).Contents (Elt F) → (⟨S16x1x64, .f32⟩ : BufTy).Contents (Elt F)),
    nullary main_cst_16 (constant S_ .f32 0x358637BD#32),
    unary main_cst_16 main_v69 (broadcastInDim S16x1x64 ![] bcast_S_S16x1x64 : (⟨S_, .f32⟩ : BufTy).Contents (Elt F) → (⟨S16x1x64, .f32⟩ : BufTy).Contents (Elt F)),
    binary main_v69 main_v68 main_v70 (addf : (⟨S16x1x64, .f32⟩ : BufTy).Contents (Elt F) → (⟨S16x1x64, .f32⟩ : BufTy).Contents (Elt F) → (⟨S16x1x64, .f32⟩ : BufTy).Contents (Elt F)),
    unary main_v70 main_v71 (broadcastInDim S16x4096x64 ![0, 1, 2] bcast_S16x1x64_S16x4096x64_0_1_2 : (⟨S16x1x64, .f32⟩ : BufTy).Contents (Elt F) → (⟨S16x4096x64, .f32⟩ : BufTy).Contents (Elt F)),
    binary main_v66 main_v71 main_v72 (Host.divf : (⟨S16x4096x64, .f32⟩ : BufTy).Contents (Elt F) → (⟨S16x4096x64, .f32⟩ : BufTy).Contents (Elt F) → (⟨S16x4096x64, .f32⟩ : BufTy).Contents (Elt F)),
    binary main_v0 main_v72 main_v73 ((fun l r => Host.dotGeneral dot_S16x512x4096_S16x4096x64_S16x512x64_2_1_1_2_0_0 none l r) : (⟨S16x512x4096, .f32⟩ : BufTy).Contents (Elt F) → (⟨S16x4096x64, .f32⟩ : BufTy).Contents (Elt F) → (⟨S16x512x64, .f32⟩ : BufTy).Contents (Elt F)),
    TRef.binary (TRef.of (T := ⟨S16x512x64, .f32⟩) main_v73) (TRef.of (T := ⟨S16x512x64, .f32⟩) main_v73) (TRef.of (T := ⟨S16x512x64, .f32⟩) main_call3_v0) mulf,
    TRef.nullary (TRef.of (T := ⟨S_, .f32⟩) main_call3_cst) (constant S_ .f32 0x00000000#32),
    TRef.binary (TRef.of (T := ⟨S16x512x64, .f32⟩) main_call3_v0) (TRef.of (T := ⟨S_, .f32⟩) main_call3_cst) (TRef.of (T := ⟨S16x64, .f32⟩) main_call3_v1) (fun x v => Host.reduceAdd x v reducesTo_S16x512x64_S16x64_d1 h_S_),
    TRef.unary (TRef.of (T := ⟨S16x64, .f32⟩) main_call3_v1) (TRef.of (T := ⟨S16x1x64, .f32⟩) main_call3_v2) (broadcastInDim S16x1x64 ![0, 2] bcast_S16x64_S16x1x64_0_2),
    TRef.unary (TRef.of (T := ⟨S16x1x64, .f32⟩) main_call3_v2) (TRef.of (T := ⟨S16x1x64, .f32⟩) main_v74) Host.sqrt,
    nullary main_cst_17 (constant S_ .f32 0x358637BD#32),
    unary main_cst_17 main_v75 (broadcastInDim S16x1x64 ![] bcast_S_S16x1x64 : (⟨S_, .f32⟩ : BufTy).Contents (Elt F) → (⟨S16x1x64, .f32⟩ : BufTy).Contents (Elt F)),
    binary main_v75 main_v74 main_v76 (addf : (⟨S16x1x64, .f32⟩ : BufTy).Contents (Elt F) → (⟨S16x1x64, .f32⟩ : BufTy).Contents (Elt F) → (⟨S16x1x64, .f32⟩ : BufTy).Contents (Elt F)),
    unary main_v76 main_v77 (broadcastInDim S16x512x64 ![0, 1, 2] bcast_S16x1x64_S16x512x64_0_1_2 : (⟨S16x1x64, .f32⟩ : BufTy).Contents (Elt F) → (⟨S16x512x64, .f32⟩ : BufTy).Contents (Elt F)),
    binary main_v73 main_v77 main_v78 (Host.divf : (⟨S16x512x64, .f32⟩ : BufTy).Contents (Elt F) → (⟨S16x512x64, .f32⟩ : BufTy).Contents (Elt F) → (⟨S16x512x64, .f32⟩ : BufTy).Contents (Elt F)) ]

/-- The closing product and the split of the position axis. -/
abbrev tailOps : List (HloOp τ sig (Elt F)) :=
  [ binary main_v78 main_v66 main_v79 ((fun l r => Host.dotGeneral dot_S16x512x64_S16x4096x64_S16x512x4096_2_2_1_1_0_0 none l r) : (⟨S16x512x64, .f32⟩ : BufTy).Contents (Elt F) → (⟨S16x4096x64, .f32⟩ : BufTy).Contents (Elt F) → (⟨S16x512x4096, .f32⟩ : BufTy).Contents (Elt F)),
    reshape main_v79 main_v80 rfl shapeCasts_S16x512x4096_S16x512x64x64 ]

/-- @main's 116 operations, in order. -/
abbrev ops : List (HloOp τ sig (Elt F)) :=
  [ reshape main_arg0 main_v0 rfl shapeCasts_S16x512x64x64_S16x512x4096,
    TRef.binary (TRef.of (T := ⟨S1x512x64, .f32⟩) main_arg1) (TRef.of (T := ⟨S1x512x64, .f32⟩) main_arg1) (TRef.of (T := ⟨S1x512x64, .f32⟩) main_call0_v0) mulf,
    TRef.nullary (TRef.of (T := ⟨S_, .f32⟩) main_call0_cst) (constant S_ .f32 0x00000000#32),
    TRef.binary (TRef.of (T := ⟨S1x512x64, .f32⟩) main_call0_v0) (TRef.of (T := ⟨S_, .f32⟩) main_call0_cst) (TRef.of (T := ⟨S1x64, .f32⟩) main_call0_v1) (fun x v => Host.reduceAdd x v reducesTo_S1x512x64_S1x64_d1 h_S_),
    TRef.unary (TRef.of (T := ⟨S1x64, .f32⟩) main_call0_v1) (TRef.of (T := ⟨S1x1x64, .f32⟩) main_call0_v2) (broadcastInDim S1x1x64 ![0, 2] bcast_S1x64_S1x1x64_0_2),
    TRef.unary (TRef.of (T := ⟨S1x1x64, .f32⟩) main_call0_v2) (TRef.of (T := ⟨S1x1x64, .f32⟩) main_v1) Host.sqrt,
    nullary main_cst (constant S_ .f32 0x358637BD#32),
    unary main_cst main_v2 (broadcastInDim S1x1x64 ![] bcast_S_S1x1x64 : (⟨S_, .f32⟩ : BufTy).Contents (Elt F) → (⟨S1x1x64, .f32⟩ : BufTy).Contents (Elt F)),
    binary main_v2 main_v1 main_v3 (addf : (⟨S1x1x64, .f32⟩ : BufTy).Contents (Elt F) → (⟨S1x1x64, .f32⟩ : BufTy).Contents (Elt F) → (⟨S1x1x64, .f32⟩ : BufTy).Contents (Elt F)),
    unary main_v3 main_v4 (broadcastInDim S1x512x64 ![0, 1, 2] bcast_S1x1x64_S1x512x64_0_1_2 : (⟨S1x1x64, .f32⟩ : BufTy).Contents (Elt F) → (⟨S1x512x64, .f32⟩ : BufTy).Contents (Elt F)),
    binary main_arg1 main_v4 main_v5 (Host.divf : (⟨S1x512x64, .f32⟩ : BufTy).Contents (Elt F) → (⟨S1x512x64, .f32⟩ : BufTy).Contents (Elt F) → (⟨S1x512x64, .f32⟩ : BufTy).Contents (Elt F)),
    unary main_v5 main_v6 (broadcastInDim S16x512x64 ![0, 1, 2] bcast_S1x512x64_S16x512x64_0_1_2 : (⟨S1x512x64, .f32⟩ : BufTy).Contents (Elt F) → (⟨S16x512x64, .f32⟩ : BufTy).Contents (Elt F)),
    binary main_v0 main_v6 main_v7 ((fun l r => Host.dotGeneral dot_S16x512x4096_S16x512x64_S16x4096x64_1_1_2_2_0_0 none l r) : (⟨S16x512x4096, .f32⟩ : BufTy).Contents (Elt F) → (⟨S16x512x64, .f32⟩ : BufTy).Contents (Elt F) → (⟨S16x4096x64, .f32⟩ : BufTy).Contents (Elt F)),
    nullary main_cst_0 (constant S_ .f32 0xFF800000#32),
    binary main_v7 main_cst_0 main_v8 ((fun x v => Host.reduce FloatOps.maximumf x v reducesTo_S16x4096x64_S16x4096_d2 h_S_) : (⟨S16x4096x64, .f32⟩ : BufTy).Contents (Elt F) → (⟨S_, .f32⟩ : BufTy).Contents (Elt F) → (⟨S16x4096, .f32⟩ : BufTy).Contents (Elt F)),
    nullary main_cst_1 (constant S_ .f32 0xFF800000#32),
    unary main_cst_1 main_v9 (broadcastInDim S16x4096 ![] bcast_S_S16x4096 : (⟨S_, .f32⟩ : BufTy).Contents (Elt F) → (⟨S16x4096, .f32⟩ : BufTy).Contents (Elt F)),
    binary main_v9 main_v8 main_v10 (maximumf : (⟨S16x4096, .f32⟩ : BufTy).Contents (Elt F) → (⟨S16x4096, .f32⟩ : BufTy).Contents (Elt F) → (⟨S16x4096, .f32⟩ : BufTy).Contents (Elt F)),
    unary main_v10 main_v11 (broadcastInDim S16x4096x1 ![0, 1] bcast_S16x4096_S16x4096x1_0_1 : (⟨S16x4096, .f32⟩ : BufTy).Contents (Elt F) → (⟨S16x4096x1, .f32⟩ : BufTy).Contents (Elt F)),
    unary main_v11 main_v12 (broadcastInDim S16x4096x64 ![0, 1, 2] bcast_S16x4096x1_S16x4096x64_0_1_2 : (⟨S16x4096x1, .f32⟩ : BufTy).Contents (Elt F) → (⟨S16x4096x64, .f32⟩ : BufTy).Contents (Elt F)),
    binary main_v7 main_v12 main_v13 (subf : (⟨S16x4096x64, .f32⟩ : BufTy).Contents (Elt F) → (⟨S16x4096x64, .f32⟩ : BufTy).Contents (Elt F) → (⟨S16x4096x64, .f32⟩ : BufTy).Contents (Elt F)),
    unary main_v13 main_v14 (Host.exp : (⟨S16x4096x64, .f32⟩ : BufTy).Contents (Elt F) → (⟨S16x4096x64, .f32⟩ : BufTy).Contents (Elt F)),
    nullary main_cst_2 (constant S_ .f32 0x00000000#32),
    binary main_v14 main_cst_2 main_v15 ((fun x v => Host.reduceAdd x v reducesTo_S16x4096x64_S16x4096_d2 h_S_) : (⟨S16x4096x64, .f32⟩ : BufTy).Contents (Elt F) → (⟨S_, .f32⟩ : BufTy).Contents (Elt F) → (⟨S16x4096, .f32⟩ : BufTy).Contents (Elt F)),
    unary main_v15 main_v16 (broadcastInDim S16x4096x1 ![0, 1] bcast_S16x4096_S16x4096x1_0_1 : (⟨S16x4096, .f32⟩ : BufTy).Contents (Elt F) → (⟨S16x4096x1, .f32⟩ : BufTy).Contents (Elt F)),
    unary main_v16 main_v17 (broadcastInDim S16x4096x64 ![0, 1, 2] bcast_S16x4096x1_S16x4096x64_0_1_2 : (⟨S16x4096x1, .f32⟩ : BufTy).Contents (Elt F) → (⟨S16x4096x64, .f32⟩ : BufTy).Contents (Elt F)),
    binary main_v14 main_v17 main_v18 (Host.divf : (⟨S16x4096x64, .f32⟩ : BufTy).Contents (Elt F) → (⟨S16x4096x64, .f32⟩ : BufTy).Contents (Elt F) → (⟨S16x4096x64, .f32⟩ : BufTy).Contents (Elt F)),
    nullary main_cst_3 (constant S_ .f32 0x00000000#32),
    binary main_v18 main_cst_3 main_v19 ((fun x v => Host.reduceAdd x v reducesTo_S16x4096x64_S16x64_d1 h_S_) : (⟨S16x4096x64, .f32⟩ : BufTy).Contents (Elt F) → (⟨S_, .f32⟩ : BufTy).Contents (Elt F) → (⟨S16x64, .f32⟩ : BufTy).Contents (Elt F)),
    unary main_v19 main_v20 (broadcastInDim S16x1x64 ![0, 2] bcast_S16x64_S16x1x64_0_2 : (⟨S16x64, .f32⟩ : BufTy).Contents (Elt F) → (⟨S16x1x64, .f32⟩ : BufTy).Contents (Elt F)),
    nullary main_cst_4 (constant S_ .f32 0x358637BD#32),
    unary main_cst_4 main_v21 (broadcastInDim S16x1x64 ![] bcast_S_S16x1x64 : (⟨S_, .f32⟩ : BufTy).Contents (Elt F) → (⟨S16x1x64, .f32⟩ : BufTy).Contents (Elt F)),
    binary main_v21 main_v20 main_v22 (addf : (⟨S16x1x64, .f32⟩ : BufTy).Contents (Elt F) → (⟨S16x1x64, .f32⟩ : BufTy).Contents (Elt F) → (⟨S16x1x64, .f32⟩ : BufTy).Contents (Elt F)),
    unary main_v22 main_v23 (broadcastInDim S16x4096x64 ![0, 1, 2] bcast_S16x1x64_S16x4096x64_0_1_2 : (⟨S16x1x64, .f32⟩ : BufTy).Contents (Elt F) → (⟨S16x4096x64, .f32⟩ : BufTy).Contents (Elt F)),
    binary main_v18 main_v23 main_v24 (Host.divf : (⟨S16x4096x64, .f32⟩ : BufTy).Contents (Elt F) → (⟨S16x4096x64, .f32⟩ : BufTy).Contents (Elt F) → (⟨S16x4096x64, .f32⟩ : BufTy).Contents (Elt F)),
    binary main_v0 main_v24 main_v25 ((fun l r => Host.dotGeneral dot_S16x512x4096_S16x4096x64_S16x512x64_2_1_1_2_0_0 none l r) : (⟨S16x512x4096, .f32⟩ : BufTy).Contents (Elt F) → (⟨S16x4096x64, .f32⟩ : BufTy).Contents (Elt F) → (⟨S16x512x64, .f32⟩ : BufTy).Contents (Elt F)),
    TRef.binary (TRef.of (T := ⟨S16x512x64, .f32⟩) main_v25) (TRef.of (T := ⟨S16x512x64, .f32⟩) main_v25) (TRef.of (T := ⟨S16x512x64, .f32⟩) main_call1_v0) mulf,
    TRef.nullary (TRef.of (T := ⟨S_, .f32⟩) main_call1_cst) (constant S_ .f32 0x00000000#32),
    TRef.binary (TRef.of (T := ⟨S16x512x64, .f32⟩) main_call1_v0) (TRef.of (T := ⟨S_, .f32⟩) main_call1_cst) (TRef.of (T := ⟨S16x64, .f32⟩) main_call1_v1) (fun x v => Host.reduceAdd x v reducesTo_S16x512x64_S16x64_d1 h_S_),
    TRef.unary (TRef.of (T := ⟨S16x64, .f32⟩) main_call1_v1) (TRef.of (T := ⟨S16x1x64, .f32⟩) main_call1_v2) (broadcastInDim S16x1x64 ![0, 2] bcast_S16x64_S16x1x64_0_2),
    TRef.unary (TRef.of (T := ⟨S16x1x64, .f32⟩) main_call1_v2) (TRef.of (T := ⟨S16x1x64, .f32⟩) main_v26) Host.sqrt,
    nullary main_cst_5 (constant S_ .f32 0x358637BD#32),
    unary main_cst_5 main_v27 (broadcastInDim S16x1x64 ![] bcast_S_S16x1x64 : (⟨S_, .f32⟩ : BufTy).Contents (Elt F) → (⟨S16x1x64, .f32⟩ : BufTy).Contents (Elt F)),
    binary main_v27 main_v26 main_v28 (addf : (⟨S16x1x64, .f32⟩ : BufTy).Contents (Elt F) → (⟨S16x1x64, .f32⟩ : BufTy).Contents (Elt F) → (⟨S16x1x64, .f32⟩ : BufTy).Contents (Elt F)),
    unary main_v28 main_v29 (broadcastInDim S16x512x64 ![0, 1, 2] bcast_S16x1x64_S16x512x64_0_1_2 : (⟨S16x1x64, .f32⟩ : BufTy).Contents (Elt F) → (⟨S16x512x64, .f32⟩ : BufTy).Contents (Elt F)),
    binary main_v25 main_v29 main_v30 (Host.divf : (⟨S16x512x64, .f32⟩ : BufTy).Contents (Elt F) → (⟨S16x512x64, .f32⟩ : BufTy).Contents (Elt F) → (⟨S16x512x64, .f32⟩ : BufTy).Contents (Elt F)),
    binary main_v0 main_v30 main_v31 ((fun l r => Host.dotGeneral dot_S16x512x4096_S16x512x64_S16x4096x64_1_1_2_2_0_0 none l r) : (⟨S16x512x4096, .f32⟩ : BufTy).Contents (Elt F) → (⟨S16x512x64, .f32⟩ : BufTy).Contents (Elt F) → (⟨S16x4096x64, .f32⟩ : BufTy).Contents (Elt F)),
    nullary main_cst_6 (constant S_ .f32 0xFF800000#32),
    binary main_v31 main_cst_6 main_v32 ((fun x v => Host.reduce FloatOps.maximumf x v reducesTo_S16x4096x64_S16x4096_d2 h_S_) : (⟨S16x4096x64, .f32⟩ : BufTy).Contents (Elt F) → (⟨S_, .f32⟩ : BufTy).Contents (Elt F) → (⟨S16x4096, .f32⟩ : BufTy).Contents (Elt F)),
    nullary main_cst_7 (constant S_ .f32 0xFF800000#32),
    unary main_cst_7 main_v33 (broadcastInDim S16x4096 ![] bcast_S_S16x4096 : (⟨S_, .f32⟩ : BufTy).Contents (Elt F) → (⟨S16x4096, .f32⟩ : BufTy).Contents (Elt F)),
    binary main_v33 main_v32 main_v34 (maximumf : (⟨S16x4096, .f32⟩ : BufTy).Contents (Elt F) → (⟨S16x4096, .f32⟩ : BufTy).Contents (Elt F) → (⟨S16x4096, .f32⟩ : BufTy).Contents (Elt F)),
    unary main_v34 main_v35 (broadcastInDim S16x4096x1 ![0, 1] bcast_S16x4096_S16x4096x1_0_1 : (⟨S16x4096, .f32⟩ : BufTy).Contents (Elt F) → (⟨S16x4096x1, .f32⟩ : BufTy).Contents (Elt F)),
    unary main_v35 main_v36 (broadcastInDim S16x4096x64 ![0, 1, 2] bcast_S16x4096x1_S16x4096x64_0_1_2 : (⟨S16x4096x1, .f32⟩ : BufTy).Contents (Elt F) → (⟨S16x4096x64, .f32⟩ : BufTy).Contents (Elt F)),
    binary main_v31 main_v36 main_v37 (subf : (⟨S16x4096x64, .f32⟩ : BufTy).Contents (Elt F) → (⟨S16x4096x64, .f32⟩ : BufTy).Contents (Elt F) → (⟨S16x4096x64, .f32⟩ : BufTy).Contents (Elt F)),
    unary main_v37 main_v38 (Host.exp : (⟨S16x4096x64, .f32⟩ : BufTy).Contents (Elt F) → (⟨S16x4096x64, .f32⟩ : BufTy).Contents (Elt F)),
    nullary main_cst_8 (constant S_ .f32 0x00000000#32),
    binary main_v38 main_cst_8 main_v39 ((fun x v => Host.reduceAdd x v reducesTo_S16x4096x64_S16x4096_d2 h_S_) : (⟨S16x4096x64, .f32⟩ : BufTy).Contents (Elt F) → (⟨S_, .f32⟩ : BufTy).Contents (Elt F) → (⟨S16x4096, .f32⟩ : BufTy).Contents (Elt F)),
    unary main_v39 main_v40 (broadcastInDim S16x4096x1 ![0, 1] bcast_S16x4096_S16x4096x1_0_1 : (⟨S16x4096, .f32⟩ : BufTy).Contents (Elt F) → (⟨S16x4096x1, .f32⟩ : BufTy).Contents (Elt F)),
    unary main_v40 main_v41 (broadcastInDim S16x4096x64 ![0, 1, 2] bcast_S16x4096x1_S16x4096x64_0_1_2 : (⟨S16x4096x1, .f32⟩ : BufTy).Contents (Elt F) → (⟨S16x4096x64, .f32⟩ : BufTy).Contents (Elt F)),
    binary main_v38 main_v41 main_v42 (Host.divf : (⟨S16x4096x64, .f32⟩ : BufTy).Contents (Elt F) → (⟨S16x4096x64, .f32⟩ : BufTy).Contents (Elt F) → (⟨S16x4096x64, .f32⟩ : BufTy).Contents (Elt F)),
    nullary main_cst_9 (constant S_ .f32 0x00000000#32),
    binary main_v42 main_cst_9 main_v43 ((fun x v => Host.reduceAdd x v reducesTo_S16x4096x64_S16x64_d1 h_S_) : (⟨S16x4096x64, .f32⟩ : BufTy).Contents (Elt F) → (⟨S_, .f32⟩ : BufTy).Contents (Elt F) → (⟨S16x64, .f32⟩ : BufTy).Contents (Elt F)),
    unary main_v43 main_v44 (broadcastInDim S16x1x64 ![0, 2] bcast_S16x64_S16x1x64_0_2 : (⟨S16x64, .f32⟩ : BufTy).Contents (Elt F) → (⟨S16x1x64, .f32⟩ : BufTy).Contents (Elt F)),
    nullary main_cst_10 (constant S_ .f32 0x358637BD#32),
    unary main_cst_10 main_v45 (broadcastInDim S16x1x64 ![] bcast_S_S16x1x64 : (⟨S_, .f32⟩ : BufTy).Contents (Elt F) → (⟨S16x1x64, .f32⟩ : BufTy).Contents (Elt F)),
    binary main_v45 main_v44 main_v46 (addf : (⟨S16x1x64, .f32⟩ : BufTy).Contents (Elt F) → (⟨S16x1x64, .f32⟩ : BufTy).Contents (Elt F) → (⟨S16x1x64, .f32⟩ : BufTy).Contents (Elt F)),
    unary main_v46 main_v47 (broadcastInDim S16x4096x64 ![0, 1, 2] bcast_S16x1x64_S16x4096x64_0_1_2 : (⟨S16x1x64, .f32⟩ : BufTy).Contents (Elt F) → (⟨S16x4096x64, .f32⟩ : BufTy).Contents (Elt F)),
    binary main_v42 main_v47 main_v48 (Host.divf : (⟨S16x4096x64, .f32⟩ : BufTy).Contents (Elt F) → (⟨S16x4096x64, .f32⟩ : BufTy).Contents (Elt F) → (⟨S16x4096x64, .f32⟩ : BufTy).Contents (Elt F)),
    binary main_v0 main_v48 main_v49 ((fun l r => Host.dotGeneral dot_S16x512x4096_S16x4096x64_S16x512x64_2_1_1_2_0_0 none l r) : (⟨S16x512x4096, .f32⟩ : BufTy).Contents (Elt F) → (⟨S16x4096x64, .f32⟩ : BufTy).Contents (Elt F) → (⟨S16x512x64, .f32⟩ : BufTy).Contents (Elt F)),
    TRef.binary (TRef.of (T := ⟨S16x512x64, .f32⟩) main_v49) (TRef.of (T := ⟨S16x512x64, .f32⟩) main_v49) (TRef.of (T := ⟨S16x512x64, .f32⟩) main_call2_v0) mulf,
    TRef.nullary (TRef.of (T := ⟨S_, .f32⟩) main_call2_cst) (constant S_ .f32 0x00000000#32),
    TRef.binary (TRef.of (T := ⟨S16x512x64, .f32⟩) main_call2_v0) (TRef.of (T := ⟨S_, .f32⟩) main_call2_cst) (TRef.of (T := ⟨S16x64, .f32⟩) main_call2_v1) (fun x v => Host.reduceAdd x v reducesTo_S16x512x64_S16x64_d1 h_S_),
    TRef.unary (TRef.of (T := ⟨S16x64, .f32⟩) main_call2_v1) (TRef.of (T := ⟨S16x1x64, .f32⟩) main_call2_v2) (broadcastInDim S16x1x64 ![0, 2] bcast_S16x64_S16x1x64_0_2),
    TRef.unary (TRef.of (T := ⟨S16x1x64, .f32⟩) main_call2_v2) (TRef.of (T := ⟨S16x1x64, .f32⟩) main_v50) Host.sqrt,
    nullary main_cst_11 (constant S_ .f32 0x358637BD#32),
    unary main_cst_11 main_v51 (broadcastInDim S16x1x64 ![] bcast_S_S16x1x64 : (⟨S_, .f32⟩ : BufTy).Contents (Elt F) → (⟨S16x1x64, .f32⟩ : BufTy).Contents (Elt F)),
    binary main_v51 main_v50 main_v52 (addf : (⟨S16x1x64, .f32⟩ : BufTy).Contents (Elt F) → (⟨S16x1x64, .f32⟩ : BufTy).Contents (Elt F) → (⟨S16x1x64, .f32⟩ : BufTy).Contents (Elt F)),
    unary main_v52 main_v53 (broadcastInDim S16x512x64 ![0, 1, 2] bcast_S16x1x64_S16x512x64_0_1_2 : (⟨S16x1x64, .f32⟩ : BufTy).Contents (Elt F) → (⟨S16x512x64, .f32⟩ : BufTy).Contents (Elt F)),
    binary main_v49 main_v53 main_v54 (Host.divf : (⟨S16x512x64, .f32⟩ : BufTy).Contents (Elt F) → (⟨S16x512x64, .f32⟩ : BufTy).Contents (Elt F) → (⟨S16x512x64, .f32⟩ : BufTy).Contents (Elt F)),
    binary main_v0 main_v54 main_v55 ((fun l r => Host.dotGeneral dot_S16x512x4096_S16x512x64_S16x4096x64_1_1_2_2_0_0 none l r) : (⟨S16x512x4096, .f32⟩ : BufTy).Contents (Elt F) → (⟨S16x512x64, .f32⟩ : BufTy).Contents (Elt F) → (⟨S16x4096x64, .f32⟩ : BufTy).Contents (Elt F)),
    nullary main_cst_12 (constant S_ .f32 0xFF800000#32),
    binary main_v55 main_cst_12 main_v56 ((fun x v => Host.reduce FloatOps.maximumf x v reducesTo_S16x4096x64_S16x4096_d2 h_S_) : (⟨S16x4096x64, .f32⟩ : BufTy).Contents (Elt F) → (⟨S_, .f32⟩ : BufTy).Contents (Elt F) → (⟨S16x4096, .f32⟩ : BufTy).Contents (Elt F)),
    nullary main_cst_13 (constant S_ .f32 0xFF800000#32),
    unary main_cst_13 main_v57 (broadcastInDim S16x4096 ![] bcast_S_S16x4096 : (⟨S_, .f32⟩ : BufTy).Contents (Elt F) → (⟨S16x4096, .f32⟩ : BufTy).Contents (Elt F)),
    binary main_v57 main_v56 main_v58 (maximumf : (⟨S16x4096, .f32⟩ : BufTy).Contents (Elt F) → (⟨S16x4096, .f32⟩ : BufTy).Contents (Elt F) → (⟨S16x4096, .f32⟩ : BufTy).Contents (Elt F)),
    unary main_v58 main_v59 (broadcastInDim S16x4096x1 ![0, 1] bcast_S16x4096_S16x4096x1_0_1 : (⟨S16x4096, .f32⟩ : BufTy).Contents (Elt F) → (⟨S16x4096x1, .f32⟩ : BufTy).Contents (Elt F)),
    unary main_v59 main_v60 (broadcastInDim S16x4096x64 ![0, 1, 2] bcast_S16x4096x1_S16x4096x64_0_1_2 : (⟨S16x4096x1, .f32⟩ : BufTy).Contents (Elt F) → (⟨S16x4096x64, .f32⟩ : BufTy).Contents (Elt F)),
    binary main_v55 main_v60 main_v61 (subf : (⟨S16x4096x64, .f32⟩ : BufTy).Contents (Elt F) → (⟨S16x4096x64, .f32⟩ : BufTy).Contents (Elt F) → (⟨S16x4096x64, .f32⟩ : BufTy).Contents (Elt F)),
    unary main_v61 main_v62 (Host.exp : (⟨S16x4096x64, .f32⟩ : BufTy).Contents (Elt F) → (⟨S16x4096x64, .f32⟩ : BufTy).Contents (Elt F)),
    nullary main_cst_14 (constant S_ .f32 0x00000000#32),
    binary main_v62 main_cst_14 main_v63 ((fun x v => Host.reduceAdd x v reducesTo_S16x4096x64_S16x4096_d2 h_S_) : (⟨S16x4096x64, .f32⟩ : BufTy).Contents (Elt F) → (⟨S_, .f32⟩ : BufTy).Contents (Elt F) → (⟨S16x4096, .f32⟩ : BufTy).Contents (Elt F)),
    unary main_v63 main_v64 (broadcastInDim S16x4096x1 ![0, 1] bcast_S16x4096_S16x4096x1_0_1 : (⟨S16x4096, .f32⟩ : BufTy).Contents (Elt F) → (⟨S16x4096x1, .f32⟩ : BufTy).Contents (Elt F)),
    unary main_v64 main_v65 (broadcastInDim S16x4096x64 ![0, 1, 2] bcast_S16x4096x1_S16x4096x64_0_1_2 : (⟨S16x4096x1, .f32⟩ : BufTy).Contents (Elt F) → (⟨S16x4096x64, .f32⟩ : BufTy).Contents (Elt F)),
    binary main_v62 main_v65 main_v66 (Host.divf : (⟨S16x4096x64, .f32⟩ : BufTy).Contents (Elt F) → (⟨S16x4096x64, .f32⟩ : BufTy).Contents (Elt F) → (⟨S16x4096x64, .f32⟩ : BufTy).Contents (Elt F)),
    nullary main_cst_15 (constant S_ .f32 0x00000000#32),
    binary main_v66 main_cst_15 main_v67 ((fun x v => Host.reduceAdd x v reducesTo_S16x4096x64_S16x64_d1 h_S_) : (⟨S16x4096x64, .f32⟩ : BufTy).Contents (Elt F) → (⟨S_, .f32⟩ : BufTy).Contents (Elt F) → (⟨S16x64, .f32⟩ : BufTy).Contents (Elt F)),
    unary main_v67 main_v68 (broadcastInDim S16x1x64 ![0, 2] bcast_S16x64_S16x1x64_0_2 : (⟨S16x64, .f32⟩ : BufTy).Contents (Elt F) → (⟨S16x1x64, .f32⟩ : BufTy).Contents (Elt F)),
    nullary main_cst_16 (constant S_ .f32 0x358637BD#32),
    unary main_cst_16 main_v69 (broadcastInDim S16x1x64 ![] bcast_S_S16x1x64 : (⟨S_, .f32⟩ : BufTy).Contents (Elt F) → (⟨S16x1x64, .f32⟩ : BufTy).Contents (Elt F)),
    binary main_v69 main_v68 main_v70 (addf : (⟨S16x1x64, .f32⟩ : BufTy).Contents (Elt F) → (⟨S16x1x64, .f32⟩ : BufTy).Contents (Elt F) → (⟨S16x1x64, .f32⟩ : BufTy).Contents (Elt F)),
    unary main_v70 main_v71 (broadcastInDim S16x4096x64 ![0, 1, 2] bcast_S16x1x64_S16x4096x64_0_1_2 : (⟨S16x1x64, .f32⟩ : BufTy).Contents (Elt F) → (⟨S16x4096x64, .f32⟩ : BufTy).Contents (Elt F)),
    binary main_v66 main_v71 main_v72 (Host.divf : (⟨S16x4096x64, .f32⟩ : BufTy).Contents (Elt F) → (⟨S16x4096x64, .f32⟩ : BufTy).Contents (Elt F) → (⟨S16x4096x64, .f32⟩ : BufTy).Contents (Elt F)),
    binary main_v0 main_v72 main_v73 ((fun l r => Host.dotGeneral dot_S16x512x4096_S16x4096x64_S16x512x64_2_1_1_2_0_0 none l r) : (⟨S16x512x4096, .f32⟩ : BufTy).Contents (Elt F) → (⟨S16x4096x64, .f32⟩ : BufTy).Contents (Elt F) → (⟨S16x512x64, .f32⟩ : BufTy).Contents (Elt F)),
    TRef.binary (TRef.of (T := ⟨S16x512x64, .f32⟩) main_v73) (TRef.of (T := ⟨S16x512x64, .f32⟩) main_v73) (TRef.of (T := ⟨S16x512x64, .f32⟩) main_call3_v0) mulf,
    TRef.nullary (TRef.of (T := ⟨S_, .f32⟩) main_call3_cst) (constant S_ .f32 0x00000000#32),
    TRef.binary (TRef.of (T := ⟨S16x512x64, .f32⟩) main_call3_v0) (TRef.of (T := ⟨S_, .f32⟩) main_call3_cst) (TRef.of (T := ⟨S16x64, .f32⟩) main_call3_v1) (fun x v => Host.reduceAdd x v reducesTo_S16x512x64_S16x64_d1 h_S_),
    TRef.unary (TRef.of (T := ⟨S16x64, .f32⟩) main_call3_v1) (TRef.of (T := ⟨S16x1x64, .f32⟩) main_call3_v2) (broadcastInDim S16x1x64 ![0, 2] bcast_S16x64_S16x1x64_0_2),
    TRef.unary (TRef.of (T := ⟨S16x1x64, .f32⟩) main_call3_v2) (TRef.of (T := ⟨S16x1x64, .f32⟩) main_v74) Host.sqrt,
    nullary main_cst_17 (constant S_ .f32 0x358637BD#32),
    unary main_cst_17 main_v75 (broadcastInDim S16x1x64 ![] bcast_S_S16x1x64 : (⟨S_, .f32⟩ : BufTy).Contents (Elt F) → (⟨S16x1x64, .f32⟩ : BufTy).Contents (Elt F)),
    binary main_v75 main_v74 main_v76 (addf : (⟨S16x1x64, .f32⟩ : BufTy).Contents (Elt F) → (⟨S16x1x64, .f32⟩ : BufTy).Contents (Elt F) → (⟨S16x1x64, .f32⟩ : BufTy).Contents (Elt F)),
    unary main_v76 main_v77 (broadcastInDim S16x512x64 ![0, 1, 2] bcast_S16x1x64_S16x512x64_0_1_2 : (⟨S16x1x64, .f32⟩ : BufTy).Contents (Elt F) → (⟨S16x512x64, .f32⟩ : BufTy).Contents (Elt F)),
    binary main_v73 main_v77 main_v78 (Host.divf : (⟨S16x512x64, .f32⟩ : BufTy).Contents (Elt F) → (⟨S16x512x64, .f32⟩ : BufTy).Contents (Elt F) → (⟨S16x512x64, .f32⟩ : BufTy).Contents (Elt F)),
    binary main_v78 main_v66 main_v79 ((fun l r => Host.dotGeneral dot_S16x512x64_S16x4096x64_S16x512x4096_2_2_1_1_0_0 none l r) : (⟨S16x512x64, .f32⟩ : BufTy).Contents (Elt F) → (⟨S16x4096x64, .f32⟩ : BufTy).Contents (Elt F) → (⟨S16x512x4096, .f32⟩ : BufTy).Contents (Elt F)),
    reshape main_v79 main_v80 rfl shapeCasts_S16x512x4096_S16x512x64x64 ]

theorem ops_split : (ops : List (HloOp τ sig (Elt F))) = prefixOps ++ (round1 ++ (round2 ++ (round3 ++ tailOps))) := rfl

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨reshape_bufs_sub .., binary_bufs_sub .., nullary_bufs_sub .., binary_bufs_sub .., unary_bufs_sub .., unary_bufs_sub .., nullary_bufs_sub .., unary_bufs_sub .., binary_bufs_sub .., unary_bufs_sub .., binary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., nullary_bufs_sub .., binary_bufs_sub .., unary_bufs_sub .., nullary_bufs_sub .., unary_bufs_sub .., binary_bufs_sub .., unary_bufs_sub .., binary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., nullary_bufs_sub .., binary_bufs_sub .., unary_bufs_sub .., nullary_bufs_sub .., unary_bufs_sub .., binary_bufs_sub .., unary_bufs_sub .., binary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., nullary_bufs_sub .., binary_bufs_sub .., unary_bufs_sub .., nullary_bufs_sub .., unary_bufs_sub .., binary_bufs_sub .., unary_bufs_sub .., binary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., reshape_bufs_sub ..⟩

/-! ## What each cut leaves in the buffers later cuts read -/

section Values

variable (W : Valuation τ sig (Elt Ideal))

theorem prefix_v0 : after (prefixOps (F := Ideal)) W (Proc.devRef .tc main_v0)
    = shapeCast S16x512x4096 (W (Proc.devRef .tc main_arg0)) shapeCasts_S16x512x64x64_S16x512x4096 := by
  after_results_simp <;> rfl
theorem prefix_v6 : after (prefixOps (F := Ideal)) W (Proc.devRef .tc main_v6) = initH (W (Proc.devRef .tc main_arg1)) := by
  after_results_simp <;> rfl

theorem round1_v0 : after (round1 (F := Ideal)) W (Proc.devRef .tc main_v0) = W (Proc.devRef .tc main_v0) := by
  after_results_simp <;> rfl
theorem round1_attn : after (round1 (F := Ideal)) W (Proc.devRef .tc main_v18)
    = attnH (W (Proc.devRef .tc main_v0)) (W (Proc.devRef .tc main_v6)) := by
  after_results_simp <;> rfl
theorem round1_step : after (round1 (F := Ideal)) W (Proc.devRef .tc main_v30)
    = stepH (W (Proc.devRef .tc main_v0)) (W (Proc.devRef .tc main_v6)) := by
  after_results_simp <;> rfl

theorem round2_v0 : after (round2 (F := Ideal)) W (Proc.devRef .tc main_v0) = W (Proc.devRef .tc main_v0) := by
  after_results_simp <;> rfl
theorem round2_step : after (round2 (F := Ideal)) W (Proc.devRef .tc main_v54)
    = stepH (W (Proc.devRef .tc main_v0)) (W (Proc.devRef .tc main_v30)) := by
  after_results_simp <;> rfl

theorem round3_attn : after (round3 (F := Ideal)) W (Proc.devRef .tc main_v66)
    = attnH (W (Proc.devRef .tc main_v0)) (W (Proc.devRef .tc main_v54)) := by
  after_results_simp <;> rfl
theorem round3_step : after (round3 (F := Ideal)) W (Proc.devRef .tc main_v78)
    = stepH (W (Proc.devRef .tc main_v0)) (W (Proc.devRef .tc main_v54)) := by
  after_results_simp <;> rfl

theorem tail_v80 : after (tailOps (F := Ideal)) W (Proc.devRef .tc main_v80)
    = shapeCast S16x512x64x64 (reconH (W (Proc.devRef .tc main_v78)) (W (Proc.devRef .tc main_v66))) shapeCasts_S16x512x4096_S16x512x64x64 := by
  after_results_simp <;> rfl

end Values

/-- The reference's result as one function of its arguments. -/
def result (x0 : FVec Ideal S16x512x64x64 .f32) (x1 : FVec Ideal S1x512x64 .f32) : FVec Ideal S16x512x64x64 .f32 :=
  shapeCast S16x512x64x64 (resultH (shapeCast S16x512x4096 x0 shapeCasts_S16x512x64x64_S16x512x4096) x1)
    shapeCasts_S16x512x4096_S16x512x64x64

/-- The whole line leaves the result buffer at `result` of the argument buffers' contents. -/
theorem after_result (V : Valuation τ sig (Elt Ideal)) :
    after (ops (F := Ideal)) V (Proc.devRef .tc main_v80) = result (V (Proc.devRef .tc main_arg0)) (V (Proc.devRef .tc main_arg1)) := by
  rw [ops_split, Cert.AfterSplit.after_append, Cert.AfterSplit.after_append, Cert.AfterSplit.after_append,
    Cert.AfterSplit.after_append]
  rw [tail_v80, round3_step, round3_attn, round2_v0, round2_step, round1_v0, round1_step, prefix_v0, prefix_v6]
  rfl

set_option maxRecDepth 8192 in
set_option maxHeartbeats 4000000 in
theorem after_arg0 (V : Valuation τ sig (Elt Ideal)) :
    after (ops (F := Ideal)) V (Proc.devRef .tc main_arg0) = V (Proc.devRef .tc main_arg0) := by
  after_results_simp <;> rfl
set_option maxRecDepth 8192 in
set_option maxHeartbeats 4000000 in
theorem after_arg1 (V : Valuation τ sig (Elt Ideal)) :
    after (ops (F := Ideal)) V (Proc.devRef .tc main_arg1) = V (Proc.devRef .tc main_arg1) := by
  after_results_simp <;> rfl

/-- On every device, from any memory with zero counters: every weakly fair execution of the reference's @main
    terminates with its result at `result` of the arguments and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v80) = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v80).trans (after_result _),
      (h c main_arg0).trans (after_arg0 _),
      (h c main_arg1).trans (after_arg1 _)⟩)
    (run_seq scopedRefs_eq scopedSems_eq defs main (fun _ => ops) main_eq (fun _ => ops_sub) m ρ)

end Cert.ReferenceIdeal.HandRun

end
-- ==== Proof.RefBlock.lean ====
/-
  The reference's operations on the batched arrays, grouped into the pieces of the iteration and read at an entry.

  The reference keeps all 16 blocks in one array and the attention with the position axis BEFORE the component axis
  ([16, 4096, 64]).  Read at block t, every piece is the matching function of Cert.EMSpec of that block's entries:
  the logits (with the two factors of each product in the other order, which on the extended reals is the same
  product), the softmax over the last axis, the normalisation by ε + the sum over positions, the projection, the
  normalisation of the columns by ε + their length, the final product, and the normalisation of the given basis, which is
  the same for every block.
-/
import proofs.«153750_j4166118277546_2_alg».proof.Proof.RefOps
import proofs.«153750_j4166118277546_2_alg».proof.Proof.EMSpec
import Idealize.ShloMosaic.Lib.Pipeline.Value
import Idealize.ShloMosaic.Lib.ValueIdx
import Idealize.ShloMosaic.PureOps.Ideal.Laws
import Idealize.ShloMosaic.PureOps.Reduce

noncomputable section

namespace Cert.ReferenceIdeal.Block

open Idealize.ShloMosaic Idealize.ShloMosaic.ValueIdx Cert.ReferenceIdeal

open Facts₀ Facts

/-! ## Each piece at block t -/

theorem hostDivf_apply {s : Shape} (a b : FVec Ideal s .f32) (i : s.Idx) : Host.divf a b i = Ideal.div (a i) (b i) := rfl
theorem hostExp_apply {s : Shape} (a : FVec Ideal s .f32) (i : s.Idx) : Host.exp a i = Ideal.exp (a i) := rfl
theorem hostSqrt_apply {s : Shape} (a : FVec Ideal s .f32) (i : s.Idx) : Host.sqrt a i = Ideal.sqrt (a i) := rfl

theorem logitsH_eq (f : Arr S16x512x4096) (b : Arr S16x512x64) (t : Fin 16) :
    (fun k n => logitsH f b (ix3 t n k)) = EMSpec.logits (fun c n => f (ix3 t c n)) (fun c k => b (ix3 t c k)) := by
  funext k n
  unfold logitsH EMSpec.logits
  rw [dot_logits_apply]
  exact Finset.sum_congr rfl fun c _ => mul_comm _ _

theorem maxK_apply (x : Arr S16x4096x64) (t : Fin 16) (n : Fin 4096) :
    maxK x (ix2 t n) = EMSpec.colMax (fun k n => x (ix3 t n k)) n := by
  unfold maxK EMSpec.colMax EMSpec.ninf
  rw [maximumf_apply, maxLast_apply,
    broadcastInDim_apply _ bcast_S_S16x4096 (constant (F := Ideal) S_ .f32 0xFF800000#32) (ix2 t n) (fun a => a.elim0) (fun a => a.elim0),
    constant_apply, constant_apply]

theorem expK_eq (x : Arr S16x4096x64) (t : Fin 16) :
    (fun k n => expK x (ix3 t n k)) = EMSpec.expo (fun k n => x (ix3 t n k)) := by
  funext k n
  unfold expK EMSpec.expo
  rw [hostExp_apply, subf_apply, spreadK_apply, maxK_apply]

theorem softmaxK_eq (x : Arr S16x4096x64) (t : Fin 16) :
    (fun k n => softmaxK x (ix3 t n k)) = EMSpec.softmax (fun k n => x (ix3 t n k)) := by
  funext k n
  unfold softmaxK EMSpec.softmax
  rw [hostDivf_apply, spreadK_apply, sumK_apply, constant_apply, Ideal.ofBits_zero_f32, zero_add, ← expK_eq x t]

theorem l1N_eq (a : Arr S16x4096x64) (t : Fin 16) :
    (fun k n => l1N a (ix3 t n k)) = EMSpec.l1 (fun k n => a (ix3 t n k)) := by
  funext k n
  unfold l1N EMSpec.l1
  rw [hostDivf_apply, spreadN_apply, addf_apply, epsRow_apply, keepMid_apply, sumN_apply, constant_apply,
    Ideal.ofBits_zero_f32, zero_add]

theorem projectH_eq (f : Arr S16x512x4096) (a : Arr S16x4096x64) (t : Fin 16) :
    (fun c k => projectH f a (ix3 t c k)) = EMSpec.project (fun c n => f (ix3 t c n)) (fun k n => a (ix3 t n k)) := by
  funext c k
  unfold projectH EMSpec.project
  rw [dot_project_apply]

theorem sqSumC_apply (b : Arr S16x512x64) (t : Fin 16) (k : Fin 64) :
    sqSumC b (ix2 t k) = ∑ c : Fin 512, b (ix3 t c k) * b (ix3 t c k) := by
  unfold sqSumC
  rw [sumC_apply, constant_apply, Ideal.ofBits_zero_f32, zero_add]
  simp only [mulf_apply]

theorem normCols_apply (b : Arr S16x512x64) (t : Fin 16) (k : Fin 64) :
    normCols b (ix3 t (0 : Fin 1) k) = Ideal.sqrt (sqSumC b (ix2 t k)) := by
  unfold normCols
  rw [hostSqrt_apply, keepMid_apply]

theorem l2Cols_eq (b : Arr S16x512x64) (t : Fin 16) :
    (fun c k => l2Cols b (ix3 t c k)) = EMSpec.l2 (fun c k => b (ix3 t c k)) := by
  funext c k
  unfold l2Cols EMSpec.l2
  rw [hostDivf_apply, spreadC_apply, addf_apply, epsRow_apply, normCols_apply, sqSumC_apply]

theorem reconH_eq (b : Arr S16x512x64) (a : Arr S16x4096x64) (t : Fin 16) :
    (fun c n => reconH b a (ix3 t c n)) = EMSpec.recon (fun c k => b (ix3 t c k)) (fun k n => a (ix3 t n k)) := by
  funext c n
  unfold reconH EMSpec.recon
  rw [dot_recon_apply]

theorem attnH_eq (f : Arr S16x512x4096) (b : Arr S16x512x64) (t : Fin 16) :
    (fun k n => attnH f b (ix3 t n k)) = EMSpec.attn (fun c n => f (ix3 t c n)) (fun c k => b (ix3 t c k)) := by
  unfold attnH EMSpec.attn
  rw [softmaxK_eq, logitsH_eq]

theorem stepH_eq (f : Arr S16x512x4096) (b : Arr S16x512x64) (t : Fin 16) :
    (fun c k => stepH f b (ix3 t c k)) = EMSpec.step (fun c n => f (ix3 t c n)) (fun c k => b (ix3 t c k)) := by
  unfold stepH EMSpec.step
  rw [l2Cols_eq, projectH_eq, l1N_eq, attnH_eq]

theorem sqSum1_apply (x1 : Arr S1x512x64) (k : Fin 64) :
    sqSum1 x1 (ix2 (0 : Fin 1) k) = ∑ q : Fin 512, x1 (ix3 (0 : Fin 1) q k) * x1 (ix3 (0 : Fin 1) q k) := by
  unfold sqSum1
  rw [sumC1_apply, constant_apply, Ideal.ofBits_zero_f32, zero_add]
  simp only [mulf_apply]

theorem denomRow1_apply (x1 : Arr S1x512x64) (k : Fin 64) :
    denomRow1 x1 (ix3 (0 : Fin 1) (0 : Fin 1) k) = EMSpec.eps + Ideal.sqrt (sqSum1 x1 (ix2 (0 : Fin 1) k)) := by
  unfold denomRow1 EMSpec.eps
  rw [addf_apply, hostSqrt_apply,
    broadcastInDim_apply _ bcast_S_S1x1x64 (constant (F := Ideal) S_ .f32 0x358637BD#32) (ix3 (0 : Fin 1) (0 : Fin 1) k) (fun a => a.elim0) (fun a => a.elim0),
    constant_apply,
    broadcastInDim_apply _ bcast_S1x64_S1x1x64_0_2 (sqSum1 x1) (ix3 (0 : Fin 1) (0 : Fin 1) k) (ix2 (0 : Fin 1) k) (fun a => match a with
    | ⟨0, _⟩ => by show 0 = if (1 : Nat) = 1 then 0 else (0 : Fin 1).val; rw [if_pos rfl]
    | ⟨1, _⟩ => by show k.val = if (64 : Nat) = 1 then 0 else k.val; rw [if_neg (by decide)])]

/-- The given basis, normalised, is the same in every block: the column normalisation of its one [512, 64] slab. -/
theorem initH_eq (x1 : Arr S1x512x64) (t : Fin 16) :
    (fun c k => initH x1 (ix3 t c k)) = EMSpec.l2 (fun c k => x1 (ix3 (0 : Fin 1) c k)) := by
  funext c k
  unfold initH EMSpec.l2
  rw [broadcastInDim_apply _ bcast_S1x512x64_S16x512x64_0_1_2 (normBasis1 x1) (ix3 t c k) (ix3 (0 : Fin 1) c k) (fun a => match a with
    | ⟨0, _⟩ => by show 0 = if (1 : Nat) = 1 then 0 else t.val; rw [if_pos rfl]
    | ⟨1, _⟩ => by show c.val = if (512 : Nat) = 1 then 0 else c.val; rw [if_neg (by decide)]
    | ⟨2, _⟩ => by show k.val = if (64 : Nat) = 1 then 0 else k.val; rw [if_neg (by decide)])]
  unfold normBasis1
  rw [hostDivf_apply,
    broadcastInDim_apply _ bcast_S1x1x64_S1x512x64_0_1_2 (denomRow1 x1) (ix3 (0 : Fin 1) c k) (ix3 (0 : Fin 1) (0 : Fin 1) k) (fun a => match a with
    | ⟨0, _⟩ => by show 0 = if (1 : Nat) = 1 then 0 else (0 : Fin 1).val; rw [if_pos rfl]
    | ⟨1, _⟩ => by show 0 = if (1 : Nat) = 1 then 0 else c.val; rw [if_pos rfl]
    | ⟨2, _⟩ => by show k.val = if (64 : Nat) = 1 then 0 else k.val; rw [if_neg (by decide)]),
    denomRow1_apply, sqSum1_apply]

/-- THE REFERENCE at block t: the specification's result of that block's features and the normalised basis. -/
theorem resultH_eq (f : Arr S16x512x4096) (x1 : Arr S1x512x64) (t : Fin 16) :
    (fun c n => resultH f x1 (ix3 t c n))
      = EMSpec.result (fun c n => f (ix3 t c n)) (EMSpec.l2 (fun c k => x1 (ix3 (0 : Fin 1) c k))) := by
  unfold resultH EMSpec.result
  rw [reconH_eq, attnH_eq]
  simp only [stepH_eq, initH_eq]

end Cert.ReferenceIdeal.Block

end
-- ==== Proof.Bridge.lean ====
/-
  The kernel program's result and the reference's are one function of the arguments.

  At the entry (t, c, n) of the [16, 512, 4096] array both are the specification's result for block t of the features
  (the first argument with its position axes merged) and the second argument with its columns normalised: on the
  kernel's side by the blocks-to-array reading and the host's normalisation before the region, on the reference's side
  by the batched pieces read at block t.  Both programs then split the position axis the same way.
-/
import proofs.«153750_j4166118277546_2_alg».proof.Proof.KernelValue
import proofs.«153750_j4166118277546_2_alg».proof.Proof.RefRun
import proofs.«153750_j4166118277546_2_alg».proof.Proof.RefBlock

noncomputable section

namespace Cert.Bridge

open Idealize.ShloMosaic Idealize.ShloMosaic.ValueIdx

/-- Before the position axis is split: the kernel's output array is the reference's batched result. -/
theorem array_eq (f : FVec Ideal ⟨3, ![16, 512, 4096]⟩ .f32) (x1 : FVec Ideal ⟨3, ![1, 512, 64]⟩ .f32) :
    Cert.KernelIdeal.HandValue.G f (Cert.KernelIdeal.HandValue.normBasis x1) = Cert.ReferenceIdeal.Block.resultH f x1 := by
  funext i
  obtain ⟨t, c, n, rfl⟩ : ∃ (t : Fin 16) (c : Fin 512) (n : Fin 4096), i = ix3 t c n := ⟨i 0, i 1, i 2, eq_ix3 i⟩
  unfold Cert.KernelIdeal.HandValue.G
  show EMSpec.result (fun c n => f (ix3 t c n)) (fun c k => Cert.KernelIdeal.HandValue.normBasis x1 (ix3 (0 : Fin 1) c k)) c n = _
  rw [Cert.KernelIdeal.HandValue.normBasis_eq]
  exact (congrFun (congrFun (Cert.ReferenceIdeal.Block.resultH_eq f x1 t) c) n).symm

/-- The two programs' results are equal, entry by entry, for all contents of the arguments. -/
theorem result_eq (x0 : FVec Ideal ⟨4, ![16, 512, 64, 64]⟩ .f32) (x1 : FVec Ideal ⟨3, ![1, 512, 64]⟩ .f32) :
    Cert.KernelIdeal.HandValue.result x0 x1 = Cert.ReferenceIdeal.HandRun.result x0 x1 := by
  unfold Cert.KernelIdeal.HandValue.result Cert.ReferenceIdeal.HandRun.result
  rw [array_eq]

end Cert.Bridge

end
-- ==== Proof.lean ====
/-
  The claim: the kernel and its idealization run and leave their arguments unchanged, the idealization rewrote nothing,
  and at exact extended-real arithmetic the kernel program and the reference end with equal results.

  Both programs compute, for each of 16 blocks, three rounds of an attention iteration — logits of the features
  against a basis, a softmax over the 64 components, a normalisation over the 4096 positions, a projection back onto
  the channels, a normalisation of the basis columns — and then the product of the last basis with the last
  attention (Proof/EMSpec.lean).  The kernel does one block per grid point on [64, 4096] arrays
  (Proof/KernelBlock.lean, Proof/KernelValue.lean); the reference does all blocks at once on [16, 4096, 64] arrays
  (Proof/RefBlock.lean, Proof/RefRun.lean).  Entry by entry the two are the same sums, quotients, exponentials and
  square roots of the same numbers — the only difference is the order of the two factors in the logits' products —,
  so the equality needs no finiteness of the inputs (Proof/Bridge.lean).
-/
import proofs.«153750_j4166118277546_2_alg».proof.Defs
import proofs.«153750_j4166118277546_2_alg».proof.Proof.Gen.Kernel
import proofs.«153750_j4166118277546_2_alg».proof.Proof.Gen.Kernel.Skeleton
import proofs.«153750_j4166118277546_2_alg».proof.Proof.Gen.Kernel.Launch
import proofs.«153750_j4166118277546_2_alg».proof.Proof.Gen.Kernel.Points
import proofs.«153750_j4166118277546_2_alg».proof.Proof.Gen.Kernel.Frame
import proofs.«153750_j4166118277546_2_alg».proof.Proof.Gen.KernelIdeal
import proofs.«153750_j4166118277546_2_alg».proof.Proof.Gen.KernelIdeal.Skeleton
import proofs.«153750_j4166118277546_2_alg».proof.Proof.Gen.KernelIdeal.Launch
import proofs.«153750_j4166118277546_2_alg».proof.Proof.Gen.KernelIdeal.Points
import proofs.«153750_j4166118277546_2_alg».proof.Proof.Gen.KernelIdeal.Frame
import proofs.«153750_j4166118277546_2_alg».proof.Proof.Gen.ReferenceIdeal
import proofs.«153750_j4166118277546_2_alg».proof.Proof.Gen.Pre_finite_inputs
import proofs.«153750_j4166118277546_2_alg».proof.Proof.KernelValue
import proofs.«153750_j4166118277546_2_alg».proof.Proof.RefRun
import proofs.«153750_j4166118277546_2_alg».proof.Proof.Bridge
import Idealize.ShloMosaic.Adequacy
import Idealize.ShloMosaic.Init

noncomputable section

namespace Cert.Proof

open Idealize.ShloMosaic Idealize.SL.Sem

/-- The kernel as printed runs and keeps its arguments. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.HandRun.run m ρ)

/-- The idealization rewrote no operation. -/
theorem preserves : Cert.preserves_Kernel_KernelIdeal := trivial

/-- From memories that agree on the arguments both programs end with the same result: each at its own function of
    the arguments, and the two functions are equal. -/
theorem algebraic : Cert.algebraic_KernelIdeal_ReferenceIdeal := by
  intro m ρ m' ρ' _ hagree
  refine ⟨fun c => Cert.KernelIdeal.HandValue.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.HandValue.run m ρ, ?_⟩
  refine (θ_run Cert.ReferenceIdeal.defs _ _).mono (fun _ h c => ⟨(h c).1.trans ?_, (h c).2⟩)
    (Cert.ReferenceIdeal.HandRun.run m' ρ')
  rw [(hagree c).1, (hagree c).2]
  exact (Cert.Bridge.result_eq _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
